-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x256 : Shape := ⟨2, ![256, 256]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part3 {F : FTy → Type} [FloatOps F] (main_arg12 : FVec F S256x256 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x256 .f32 := Host.absf main_arg12
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  main_v58

def fn_part2 {F : FTy → Type} [FloatOps F] (main_arg8 : FVec F S256 .f32) (main_arg9 : FVec F S256x256 .f32) (main_arg10 : FVec F S256x256 .f32) (main_arg11 : FVec F S256 .f32) (main_arg12 : FVec F S256x256 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg9
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256x256 .f32 := Host.absf main_arg10
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg11
  let main_cst_18 : FVec F S_ .f32 := constant S_ .f32 0x7F800000#32
  let main_v50 : FVec F S256 .f32 := broadcastInDim S256 ![] bcast_S_S256 main_cst_18
  fn_part3 (F := F) main_arg12 main_v48 main_v49 main_v50

def fn_part1 {F : FTy → Type} [FloatOps F] (main_arg5 : FVec F S256 .f32) (main_arg6 : FVec F S128x256 .f32) (main_arg7 : FVec F S256x256 .f32) (main_arg8 : FVec F S256 .f32) (main_arg9 : FVec F S256x256 .f32) (main_arg10 : FVec F S256x256 .f32) (main_arg11 : FVec F S256 .f32) (main_arg12 : FVec F S256x256 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S128x256 .f32 := Host.absf main_arg6
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S256x256 .f32 := Host.absf main_arg7
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S50000x128 .f32) (main_arg1 : IVec S2x800000 32) (main_arg2 : FVec F S128x128 .f32) (main_arg3 : FVec F S128 .f32) (main_arg4 : FVec F S128x256 .f32) (main_arg5 : FVec F S256 .f32) (main_arg6 : FVec F S128x256 .f32) (main_arg7 : FVec F S256x256 .f32) (main_arg8 : FVec F S256 .f32) (main_arg9 : FVec F S256x256 .f32) (main_arg10 : FVec F S256x256 .f32) (main_arg11 : FVec F S256 .f32) (main_arg12 : FVec F S256x256 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x256 .f32 := Host.absf main_arg4
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg5 main_arg6 main_arg7 main_arg8 main_arg9 main_arg10 main_arg11 main_arg12 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x256 : Shape := ⟨2, ![256, 256]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S1x128 : Shape := ⟨2, ![1, 128]⟩
abbrev S2000x128 : Shape := ⟨2, ![2000, 128]⟩
abbrev S800000x128 : Shape := ⟨2, ![800000, 128]⟩
abbrev S1x256 : Shape := ⟨2, ![1, 256]⟩
abbrev S50000x256 : Shape := ⟨2, ![50000, 256]⟩
abbrev S2000x256 : Shape := ⟨2, ![2000, 256]⟩
abbrev S800000x256 : Shape := ⟨2, ![800000, 256]⟩
abbrev S2000 : Shape := ⟨1, ![2000]⟩
abbrev S2000x1 : Shape := ⟨2, ![2000, 1]⟩

abbrev nBuf : Space → Nat
  | .hbm => 80
  | .vmem => 33
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x256, .f32⟩
  | .hbm, ⟨5, _⟩ => ⟨S256, .f32⟩
  | .hbm, ⟨6, _⟩ => ⟨S128x256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256x256, .f32⟩
  | .hbm, ⟨11, _⟩ => ⟨S256, .f32⟩
  | .hbm, ⟨12, _⟩ => ⟨S256x256, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S_, .f32⟩
  | .hbm, ⟨18, _⟩ => ⟨S800000, .f32⟩
  | .hbm, ⟨19, _⟩ => ⟨S_, .f32⟩
  | .hbm, ⟨20, _⟩ => ⟨S50000, .f32⟩
  | .hbm, ⟨21, _⟩ => ⟨S800000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S50000x1, .f32⟩
  | .hbm, ⟨27, _⟩ => ⟨S1x128, .f32⟩
  | .hbm, ⟨28, _⟩ => ⟨S50000x128, .f32⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S800000x128, .f32⟩
  | .hbm, ⟨38, _⟩ => ⟨S_, .f32⟩
  | .hbm, ⟨39, _⟩ => ⟨S50000x128, .f32⟩
  | .hbm, ⟨40, _⟩ => ⟨S800000x1, .i32⟩
  | .hbm, ⟨41, _⟩ => ⟨S50000x128, .f32⟩
  | .hbm, ⟨42, _⟩ => ⟨S50000x128, .f32⟩
  | .hbm, ⟨43, _⟩ => ⟨S50000x128, .f32⟩
  | .hbm, ⟨44, _⟩ => ⟨S1x256, .f32⟩
  | .hbm, ⟨45, _⟩ => ⟨S50000x256, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x256, .f32⟩
  | .hbm, ⟨55, _⟩ => ⟨S_, .f32⟩
  | .hbm, ⟨56, _⟩ => ⟨S50000x256, .f32⟩
  | .hbm, ⟨57, _⟩ => ⟨S800000x1, .i32⟩
  | .hbm, ⟨58, _⟩ => ⟨S50000x256, .f32⟩
  | .hbm, ⟨59, _⟩ => ⟨S50000x256, .f32⟩
  | .hbm, ⟨60, _⟩ => ⟨S50000x256, .f32⟩
  | .hbm, ⟨61, _⟩ => ⟨S1x256, .f32⟩
  | .hbm, ⟨62, _⟩ => ⟨S50000x256, .f32⟩
  | .hbm, ⟨63, _⟩ => ⟨S_, .i32⟩
  | .hbm, ⟨64, _⟩ => ⟨S800000, .i32⟩
  | .hbm, ⟨65, _⟩ => ⟨S800000, .i1⟩
  | .hbm, ⟨66, _⟩ => ⟨S_, .i32⟩
  | .hbm, ⟨67, _⟩ => ⟨S800000, .i32⟩
  | .hbm, ⟨68, _⟩ => ⟨S800000, .i32⟩
  | .hbm, ⟨69, _⟩ => ⟨S800000, .i32⟩
  | .hbm, ⟨70, _⟩ => ⟨S800000x1, .i32⟩
  | .hbm, ⟨71, _⟩ => ⟨S800000x256, .f32⟩
  | .hbm, ⟨72, _⟩ => ⟨S_, .f32⟩
  | .hbm, ⟨73, _⟩ => ⟨S50000x256, .f32⟩
  | .hbm, ⟨74, _⟩ => ⟨S800000x1, .i32⟩
  | .hbm, ⟨75, _⟩ => ⟨S50000x256, .f32⟩
  | .hbm, ⟨76, _⟩ => ⟨S50000x256, .f32⟩
  | .hbm, ⟨77, _⟩ => ⟨S50000x256, .f32⟩
  | .hbm, ⟨78, _⟩ => ⟨S1x256, .f32⟩
  | .hbm, ⟨79, _⟩ => ⟨S50000x256, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S128x256, .f32⟩
  | .local _ .vmem, ⟨11, _⟩ => ⟨S128x256, .f32⟩
  | .local _ .vmem, ⟨12, _⟩ => ⟨S1x256, .f32⟩
  | .local _ .vmem, ⟨13, _⟩ => ⟨S2000x256, .f32⟩
  | .local _ .vmem, ⟨14, _⟩ => ⟨S2000x256, .f32⟩
  | .local _ .vmem, ⟨15, _⟩ => ⟨S2000x256, .f32⟩
  | .local _ .vmem, ⟨16, _⟩ => ⟨S2000x256, .f32⟩
  | .local _ .vmem, ⟨17, _⟩ => ⟨S2000x256, .f32⟩
  | .local _ .vmem, ⟨18, _⟩ => ⟨S2000x256, .f32⟩
  | .local _ .vmem, ⟨19, _⟩ => ⟨S256x256, .f32⟩
  | .local _ .vmem, ⟨20, _⟩ => ⟨S256x256, .f32⟩
  | .local _ .vmem, ⟨21, _⟩ => ⟨S1x256, .f32⟩
  | .local _ .vmem, ⟨22, _⟩ => ⟨S2000x256, .f32⟩
  | .local _ .vmem, ⟨23, _⟩ => ⟨S2000x256, .f32⟩
  | .local _ .vmem, ⟨24, _⟩ => ⟨S2000x256, .f32⟩
  | .local _ .vmem, ⟨25, _⟩ => ⟨S2000x256, .f32⟩
  | .local _ .vmem, ⟨26, _⟩ => ⟨S2000x256, .f32⟩
  | .local _ .vmem, ⟨27, _⟩ => ⟨S2000x256, .f32⟩
  | .local _ .vmem, ⟨28, _⟩ => ⟨S256x256, .f32⟩
  | .local _ .vmem, ⟨29, _⟩ => ⟨S256x256, .f32⟩
  | .local _ .vmem, ⟨30, _⟩ => ⟨S1x256, .f32⟩
  | .local _ .vmem, ⟨31, _⟩ => ⟨S2000x256, .f32⟩
  | .local _ .vmem, ⟨32, _⟩ => ⟨S2000x256, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_c : Ref sig .tc := ⟨.hbm, 29, rfl⟩
abbrev main_v13 : Ref sig .tc := ⟨.hbm, 30, rfl⟩
abbrev main_v14 : Ref sig .tc := ⟨.hbm, 31, rfl⟩
abbrev main_c_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_3 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_4 : Ref sig .tc := ⟨.hbm, 46, rfl⟩
abbrev main_v27 : Ref sig .tc := ⟨.hbm, 47, rfl⟩
abbrev main_v28 : Ref sig .tc := ⟨.hbm, 48, rfl⟩
abbrev main_c_5 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_6 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_c_7 : Ref sig .tc := ⟨.hbm, 63, rfl⟩
abbrev main_v41 : Ref sig .tc := ⟨.hbm, 64, rfl⟩
abbrev main_v42 : Ref sig .tc := ⟨.hbm, 65, rfl⟩
abbrev main_c_8 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_9 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg5_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem4_0 : DmaSem sig := 30
abbrev cc3_sem5_0 : DmaSem sig := 31
abbrev cc3_sem5_1 : DmaSem sig := 32

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S256x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S256x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x256 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  shapeCasts_S256_S1x256 : S256.ShapeCasts S1x256
  shapeCasts_S2000x128_S2000x128 : S2000x128.ShapeCasts S2000x128
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  reduces_S2000x256_S2000 : S2000x256.Reduces [1] S2000
  shapeCasts_S2000_S2000x1 : S2000.ShapeCasts S2000x1
  broadcasts_S2000x1_S2000x256 : S2000x1.Broadcasts S2000x256
  scatter_S50000_S800000x1_S800000_n_0_0_1_wf : ScatterDims.WF S50000 S800000x1 S800000 [] [0] [0] 1
  dot_S2000x128_S128x128_S2000x128_1_0_0_1_n_n_wf : DotDims.WF S2000x128 S128x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x256_S2000x256_1_0_0_1_n_n_wf : DotDims.WF S2000x128 S128x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x256.size a ≤ S128x256.size a
  hwx1_2 : ∀ i : grid1.Coords, EltTy.bits .f32 = 32 ∨ (Rect.block (s := S128x256) S128x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x256.size a ≤ S128x256.size a
  hwx1_3 : ∀ i : grid1.Coords, EltTy.bits .f32 = 32 ∨ (Rect.block (s := S128x256) S128x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S50000x256.size a
  hwx1_5 : ∀ i : grid1.Coords, EltTy.bits .f32 = 32 ∨ (Rect.block (s := S50000x256) S2000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S50000x256.size a
  hwx2_1 : ∀ i : grid2.Coords, EltTy.bits .f32 = 32 ∨ (Rect.block (s := S50000x256) S2000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .f32 = 32 ∨ (Rect.block (s := S256x256) S256x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x256.size a ≤ S50000x256.size a
  hwx2_5 : ∀ i : grid2.Coords, EltTy.bits .f32 = 32 ∨ (Rect.block (s := S50000x256) S2000x256.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x256.size a ≤ S50000x256.size a
  hwx3_1 : ∀ i : grid3.Coords, EltTy.bits .f32 = 32 ∨ (Rect.block (s := S50000x256) S2000x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x256.size a ≤ S256x256.size a
  hwx3_2 : ∀ i : grid3.Coords, EltTy.bits .f32 = 32 ∨ (Rect.block (s := S256x256) S256x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x256.size a ≤ S256x256.size a
  hwx3_3 : ∀ i : grid3.Coords, EltTy.bits .f32 = 32 ∨ (Rect.block (s := S256x256) S256x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x256.size a ≤ S50000x256.size a
  hwx3_5 : ∀ i : grid3.Coords, EltTy.bits .f32 = 32 ∨ (Rect.block (s := S50000x256) S2000x256.size (cc3_transform_5 i) (hinb3_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v24) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v25) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v26) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v38) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v26) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v39) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v40) S2000x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v52) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v40) S2000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg10) S256x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg12) S256x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v53) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v54) S2000x256.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x256 : Shape := ⟨2, ![256, 256]⟩
abbrev S1x800000 : Shape := ⟨2, ![1, 800000]⟩
abbrev S800000 : Shape := ⟨1, ![800000]⟩
abbrev S1x128 : Shape := ⟨2, ![1, 128]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S50000x256 : Shape := ⟨2, ![50000, 256]⟩
abbrev S1x256 : Shape := ⟨2, ![1, 256]⟩
abbrev S800000x256 : Shape := ⟨2, ![800000, 256]⟩

abbrev nBuf : Space → Nat
  | .hbm => 130
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x256, .f32⟩
  | 5 => ⟨S256, .f32⟩
  | 6 => ⟨S128x256, .f32⟩
  | 7 => ⟨S256x256, .f32⟩
  | 8 => ⟨S256, .f32⟩
  | 9 => ⟨S256x256, .f32⟩
  | 10 => ⟨S256x256, .f32⟩
  | 11 => ⟨S256, .f32⟩
  | 12 => ⟨S256x256, .f32⟩
  | 13 => ⟨S1x800000, .i32⟩
  | 14 => ⟨S800000, .i32⟩
  | 15 => ⟨S1x800000, .i32⟩
  | 16 => ⟨S800000, .i32⟩
  | 17 => ⟨S50000x128, .f32⟩
  | 18 => ⟨S1x128, .f32⟩
  | 19 => ⟨S50000x128, .f32⟩
  | 20 => ⟨S50000x128, .f32⟩
  | 21 => ⟨S_, .i32⟩
  | 22 => ⟨S800000, .i32⟩
  | 23 => ⟨S800000, .i1⟩
  | 24 => ⟨S_, .i32⟩
  | 25 => ⟨S800000, .i32⟩
  | 26 => ⟨S800000, .i32⟩
  | 27 => ⟨S800000, .i32⟩
  | 28 => ⟨S800000x1, .i32⟩
  | 29 => ⟨S800000x128, .f32⟩
  | 30 => ⟨S_, .f32⟩
  | 31 => ⟨S50000x128, .f32⟩
  | 32 => ⟨S800000x1, .i32⟩
  | 33 => ⟨S50000x128, .f32⟩
  | 34 => ⟨S_, .f32⟩
  | 35 => ⟨S800000, .f32⟩
  | 36 => ⟨S_, .f32⟩
  | 37 => ⟨S50000, .f32⟩
  | 38 => ⟨S800000x1, .i32⟩
  | 39 => ⟨S50000, .f32⟩
  | 40 => ⟨S_, .f32⟩
  | 41 => ⟨S50000, .f32⟩
  | 42 => ⟨S50000, .f32⟩
  | 43 => ⟨S50000x1, .f32⟩
  | 44 => ⟨S50000x128, .f32⟩
  | 45 => ⟨S50000x128, .f32⟩
  | 46 => ⟨S50000x256, .f32⟩
  | 47 => ⟨S1x256, .f32⟩
  | 48 => ⟨S50000x256, .f32⟩
  | 49 => ⟨S50000x256, .f32⟩
  | 50 => ⟨S50000x256, .f32⟩
  | 51 => ⟨S50000x256, .f32⟩
  | 52 => ⟨S_, .f32⟩
  | 53 => ⟨S50000x256, .f32⟩
  | 54 => ⟨S50000x256, .f32⟩
  | 55 => ⟨S_, .i32⟩
  | 56 => ⟨S800000, .i32⟩
  | 57 => ⟨S800000, .i1⟩
  | 58 => ⟨S_, .i32⟩
  | 59 => ⟨S800000, .i32⟩
  | 60 => ⟨S800000, .i32⟩
  | 61 => ⟨S800000, .i32⟩
  | 62 => ⟨S800000x1, .i32⟩
  | 63 => ⟨S800000x256, .f32⟩
  | 64 => ⟨S_, .f32⟩
  | 65 => ⟨S50000x256, .f32⟩
  | 66 => ⟨S800000x1, .i32⟩
  | 67 => ⟨S50000x256, .f32⟩
  | 68 => ⟨S_, .f32⟩
  | 69 => ⟨S800000, .f32⟩
  | 70 => ⟨S_, .f32⟩
  | 71 => ⟨S50000, .f32⟩
  | 72 => ⟨S800000x1, .i32⟩
  | 73 => ⟨S50000, .f32⟩
  | 74 => ⟨S_, .f32⟩
  | 75 => ⟨S50000, .f32⟩
  | 76 => ⟨S50000, .f32⟩
  | 77 => ⟨S50000x1, .f32⟩
  | 78 => ⟨S50000x256, .f32⟩
  | 79 => ⟨S50000x256, .f32⟩
  | 80 => ⟨S50000x256, .f32⟩
  | 81 => ⟨S1x256, .f32⟩
  | 82 => ⟨S50000x256, .f32⟩
  | 83 => ⟨S50000x256, .f32⟩
  | 84 => ⟨S50000x256, .f32⟩
  | 85 => ⟨S50000x256, .f32⟩
  | 86 => ⟨S_, .f32⟩
  | 87 => ⟨S50000x256, .f32⟩
  | 88 => ⟨S50000x256, .f32⟩
  | 89 => ⟨S_, .i32⟩
  | 90 => ⟨S800000, .i32⟩
  | 91 => ⟨S800000, .i1⟩
  | 92 => ⟨S_, .i32⟩
  | 93 => ⟨S800000, .i32⟩
  | 94 => ⟨S800000, .i32⟩
  | 95 => ⟨S800000, .i32⟩
  | 96 => ⟨S800000x1, .i32⟩
  | 97 => ⟨S800000x256, .f32⟩
  | 98 => ⟨S_, .f32⟩
  | 99 => ⟨S50000x256, .f32⟩
  | 100 => ⟨S800000x1, .i32⟩
  | 101 => ⟨S50000x256, .f32⟩
  | 102 => ⟨S_, .f32⟩
  | 103 => ⟨S800000, .f32⟩
  | 104 => ⟨S_, .f32⟩
  | 105 => ⟨S50000, .f32⟩
  | 106 => ⟨S800000x1, .i32⟩
  | 107 => ⟨S50000, .f32⟩
  | 108 => ⟨S_, .f32⟩
  | 109 => ⟨S50000, .f32⟩
  | 110 => ⟨S50000, .f32⟩
  | 111 => ⟨S50000x1, .f32⟩
  | 112 => ⟨S50000x256, .f32⟩
  | 113 => ⟨S50000x256, .f32⟩
  | 114 => ⟨S50000x256, .f32⟩
  | 115 => ⟨S1x256, .f32⟩
  | 116 => ⟨S50000x256, .f32⟩
  | 117 => ⟨S50000x256, .f32⟩
  | 118 => ⟨S50000x256, .f32⟩
  | 119 => ⟨S50000x256, .f32⟩
  | 120 => ⟨S50000x256, .f32⟩
  | 121 => ⟨S_, .f32⟩
  | 122 => ⟨S50000, .f32⟩
  | 123 => ⟨S50000x1, .f32⟩
  | 124 => ⟨S50000x1, .f32⟩
  | 125 => ⟨S_, .f32⟩
  | 126 => ⟨S50000x1, .f32⟩
  | 127 => ⟨S50000x1, .f32⟩
  | _ => ⟨S50000x128, .f32⟩

abbrev hbmTy0_1 (i : Nat) : BufTy := match i % 128 with
  | 0 => ⟨S50000x256, .f32⟩
  | 1 => ⟨S50000x256, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_c : Ref sig .tc := ⟨.hbm, 21, rfl⟩
abbrev main_v8 : Ref sig .tc := ⟨.hbm, 22, rfl⟩
abbrev main_v9 : Ref sig .tc := ⟨.hbm, 23, rfl⟩
abbrev main_c_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_1 : Ref sig .tc := ⟨.hbm, 34, rfl⟩
abbrev main_v18 : Ref sig .tc := ⟨.hbm, 35, rfl⟩
abbrev main_cst_2 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_call0_cst : Ref sig .tc := ⟨.hbm, 52, rfl⟩
abbrev main_call0_v0 : Ref sig .tc := ⟨.hbm, 53, rfl⟩
abbrev main_v33 : Ref sig .tc := ⟨.hbm, 54, rfl⟩
abbrev main_c_4 : Ref sig .tc := ⟨.hbm, 55, rfl⟩
abbrev main_v34 : Ref sig .tc := ⟨.hbm, 56, rfl⟩
abbrev main_v35 : Ref sig .tc := ⟨.hbm, 57, rfl⟩
abbrev main_c_5 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_6 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_7 : Ref sig .tc := ⟨.hbm, 68, rfl⟩
abbrev main_v44 : Ref sig .tc := ⟨.hbm, 69, rfl⟩
abbrev main_cst_8 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_9 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_call1_cst : Ref sig .tc := ⟨.hbm, 86, rfl⟩
abbrev main_call1_v0 : Ref sig .tc := ⟨.hbm, 87, rfl⟩
abbrev main_v59 : Ref sig .tc := ⟨.hbm, 88, rfl⟩
abbrev main_c_10 : Ref sig .tc := ⟨.hbm, 89, rfl⟩
abbrev main_v60 : Ref sig .tc := ⟨.hbm, 90, rfl⟩
abbrev main_v61 : Ref sig .tc := ⟨.hbm, 91, rfl⟩
abbrev main_c_11 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_cst_12 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_13 : Ref sig .tc := ⟨.hbm, 102, rfl⟩
abbrev main_v70 : Ref sig .tc := ⟨.hbm, 103, rfl⟩
abbrev main_cst_14 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_cst_15 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_cst_16 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_cst_17 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  reducesTo_S50000x256_S50000_d1 : S50000x256.ReducesTo [1] S50000
  h_S_ : 0 < S_.numel
  bcast_S_S50000x1 : S_.BroadcastsInDim S50000x1 (![] : Fin 0 → Fin S50000x1.rank)
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.KernelRun.lean ====
/-
  The idealized kernel's run, with every buffer's final content named.

  The program is eight segments: four stretches of host operations, each followed by one pipelined region.
  The content of every buffer at each segment boundary is a fold from the launch memory: a stretch applies its
  operations, a region replaces each of its windows' arrays by what the pipeline's write-backs leave and keeps
  every other buffer. Every weakly fair execution terminates without a fault, and in every final state each
  buffer that no region scopes holds the last value of that fold. In particular the result buffer, which is
  the last region's output window, holds what that region's write-backs leave of it.
-/
import proofs.«131527_j89429809037918_1_alg».proof.Proof.GenP.KernelIdeal.Frame

set_option maxRecDepth 16384

noncomputable section

namespace Cert.Sage.Kern

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, and every unscoped buffer of every core ends at the
    last value of the fold through the segments. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-- The result buffer ends at what the last region's write-backs leave of its output window; each argument ends
    as launched. -/
theorem run_result : θ_run defs (onTc (τ := τ) (main (F := F))) ⟨m, fun _ => 0, ρ⟩ (fun r => ∀ c : Dev nD,
      r.2.mem ((c.tc : Thread nD τ).loc main_v54) = (dat3 (V7 m ρ) c).arrAt 5 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun s h c =>
      ⟨(h c _ (mem_uc main_v54 (by decide))).trans (W8_arr m ρ c 5),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c)⟩)
    (run_all m ρ)

end Cert.Sage.Kern

end
-- ==== Proof.SageMean.lean ====
/-
  The neighbourhood mean of a graph convolution, as the host computes it.

  From the node features h (one row per node) and the 2 × E array e of edges (row 0 the sources, row 1 the
  destinations): gather the rows of h at the source indices (a negative index counted from the end), add each
  gathered row into the row of its destination, and divide each row by the number of edges that end at that
  node, that number raised to at least 1. The two programs compute this by the same host operations, so it is kept
  as ONE function of (h, e), for rows of 128 and of 256 features, and never read entry by entry.
-/
import proofs.«131527_j89429809037918_1_alg».proof.Proof.Gen.ReferenceIdeal.Read

noncomputable section

namespace Cert.Sage

open Cert.ReferenceIdeal Cert.ReferenceIdeal.Read Idealize.ShloMosaic

/-- The mean over incoming edges of 128-feature rows. -/
def mean128 (h : (⟨S50000x128, .f32⟩ : BufTy).Contents (Elt Ideal)) (e : (⟨S2x800000, .i32⟩ : BufTy).Contents (Elt Ideal)) :
    (⟨S50000x128, .f32⟩ : BufTy).Contents (Elt Ideal) :=
  Host.divf (F := Ideal) (φ := .f32)
    (Host.scatterAdd (F := Ideal) (φ := .f32) scatter_S50000x128_S800000x1_S800000x128_1_0_0_1 (val_main_v15 (F := Ideal)) (val_main_v16 (F := Ideal) e)
      (Host.gather gather_S50000x128_S800000x1_S800000x128_1_0_n_n_0_1_1128 h (val_main_v13 (F := Ideal) e)))
    (val_main_v25 (F := Ideal) e)

/-- The mean over incoming edges of 256-feature rows. -/
def mean256 (h : (⟨S50000x256, .f32⟩ : BufTy).Contents (Elt Ideal)) (e : (⟨S2x800000, .i32⟩ : BufTy).Contents (Elt Ideal)) :
    (⟨S50000x256, .f32⟩ : BufTy).Contents (Elt Ideal) :=
  Host.divf (F := Ideal) (φ := .f32)
    (Host.scatterAdd (F := Ideal) (φ := .f32) scatter_S50000x256_S800000x1_S800000x256_1_0_0_1 (val_main_v41 (F := Ideal)) (val_main_v42 (F := Ideal) e)
      (Host.gather gather_S50000x256_S800000x1_S800000x256_1_0_n_n_0_1_1256 h (val_main_v39 (F := Ideal) e)))
    (val_main_v51 (F := Ideal) e)

end Cert.Sage

end
-- ==== Proof.KernelHost.lean ====
/-
  The idealized kernel's host stretches.

  Between its four regions the program runs host operations: before the first region it splits the edge array
  into sources and destinations, counts the edges ending at each node (raised to at least 1) and lays the first
  bias out as a row; before each later region it gathers the previous region's rows at the sources, adds them
  up at the destinations, divides by the counts, and lays the next bias out as a row. Read through the fold of
  buffer contents, each region therefore finds: the neighbourhood mean of the previous region's output (the same
  function of that output and of the edge array that the reference applies), that output itself, its two weight
  arguments as launched, and its bias argument as a one-row array.
-/
import proofs.«131527_j89429809037918_1_alg».proof.Proof.GenP.KernelIdeal.Frame
import proofs.«131527_j89429809037918_1_alg».proof.Proof.SageMean
import Idealize.ShloMosaic.Lib.StableHlo.Run

set_option maxRecDepth 16384

noncomputable section

namespace Cert.Sage.Host

open Cert.KernelIdeal Cert.KernelIdeal.Gen Cert.KernelIdeal.GenP
open Idealize.ShloMosaic Idealize.ShloMosaic.TcCoe Idealize.ShloMosaic.Tactic Idealize.SL.Sem

/-- A buffer that no operation of a stretch writes holds after the stretch what it held before. -/
macro "untouched_by " ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

variable (m : (ℓ : Loc nD τ sig) → Buf (Elt Ideal) ℓ) (ρ : Dev nD → PrngReg) (c : Dev nD)

/-- The edge array as launched. -/
abbrev edges : (⟨Cert.ReferenceIdeal.S2x800000, .i32⟩ : BufTy).Contents (Elt Ideal) := m ((c : Thread nD τ).loc main_arg1)

/-! ## Before the first region -/

theorem W1_arg0 : W1 m ρ c (Proc.devRef .tc main_arg0) = m ((c : Thread nD τ).loc main_arg0) :=
  calc W1 m ρ c (Proc.devRef .tc main_arg0)
    _ = W0 m ρ c (Proc.devRef .tc main_arg0) := by untouched_by hostOps0
    _ = _ := rfl

theorem W1_arg2 : W1 m ρ c (Proc.devRef .tc main_arg2) = m ((c : Thread nD τ).loc main_arg2) :=
  calc W1 m ρ c (Proc.devRef .tc main_arg2)
    _ = W0 m ρ c (Proc.devRef .tc main_arg2) := by untouched_by hostOps0
    _ = _ := rfl

/-- The first bias laid out as a row. -/
theorem W1_v11 : W1 m ρ c (Proc.devRef .tc main_v11)
    = shapeCast S1x128 (m ((c : Thread nD τ).loc main_arg3)) shapeCasts_S128_S1x128 := by
  show StableHlo.after hostOps0 (W0 m ρ c) (Proc.devRef .tc main_v11) = _
  after_results
  rfl

/-- The sources, the destinations and the clamped in-degrees are the reference's own terms of the edge array. -/
theorem W1_v1 : W1 m ρ c (Proc.devRef .tc main_v1) = Cert.ReferenceIdeal.Read.val_main_v1 (F := Ideal) (edges m c) := by
  show StableHlo.after hostOps0 (W0 m ρ c) (Proc.devRef .tc main_v1) = _
  after_results
  rfl

theorem W1_v3 : W1 m ρ c (Proc.devRef .tc main_v3) = Cert.ReferenceIdeal.Read.val_main_v3 (F := Ideal) (edges m c) := by
  show StableHlo.after hostOps0 (W0 m ρ c) (Proc.devRef .tc main_v3) = _
  after_results
  rfl

theorem W1_v10 : W1 m ρ c (Proc.devRef .tc main_v10) = Cert.ReferenceIdeal.Read.val_main_v24 (F := Ideal) (edges m c) := by
  show StableHlo.after hostOps0 (W0 m ρ c) (Proc.devRef .tc main_v10) = _
  after_results
  rfl

/-! ## Between the first and the second region -/

theorem W2_v1 : W2 m ρ c (Proc.devRef .tc main_v1) = Cert.ReferenceIdeal.Read.val_main_v1 (F := Ideal) (edges m c) :=
  (W2_of_ne m ρ c main_v1 (by decide)).trans (W1_v1 m ρ c)
theorem W2_v3 : W2 m ρ c (Proc.devRef .tc main_v3) = Cert.ReferenceIdeal.Read.val_main_v3 (F := Ideal) (edges m c) :=
  (W2_of_ne m ρ c main_v3 (by decide)).trans (W1_v3 m ρ c)
theorem W2_v10 : W2 m ρ c (Proc.devRef .tc main_v10) = Cert.ReferenceIdeal.Read.val_main_v24 (F := Ideal) (edges m c) :=
  (W2_of_ne m ρ c main_v10 (by decide)).trans (W1_v10 m ρ c)

theorem W2_arg4 : W2 m ρ c (Proc.devRef .tc main_arg4) = m ((c : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) := by untouched_by hostOps0
    _ = _ := rfl

theorem W2_arg5 : W2 m ρ c (Proc.devRef .tc main_arg5) = m ((c : Thread nD τ).loc main_arg5) :=
  calc W2 m ρ c (Proc.devRef .tc main_arg5)
    _ = W1 m ρ c (Proc.devRef .tc main_arg5) := W2_of_ne m ρ c main_arg5 (by decide)
    _ = W0 m ρ c (Proc.devRef .tc main_arg5) := by untouched_by hostOps0
    _ = _ := rfl

theorem W2_arg6 : W2 m ρ c (Proc.devRef .tc main_arg6) = m ((c : Thread nD τ).loc main_arg6) :=
  calc W2 m ρ c (Proc.devRef .tc main_arg6)
    _ = W1 m ρ c (Proc.devRef .tc main_arg6) := W2_of_ne m ρ c main_arg6 (by decide)
    _ = W0 m ρ c (Proc.devRef .tc main_arg6) := by untouched_by hostOps0
    _ = _ := rfl

theorem W2_arg7 : W2 m ρ c (Proc.devRef .tc main_arg7) = m ((c : Thread nD τ).loc main_arg7) :=
  calc W2 m ρ c (Proc.devRef .tc main_arg7)
    _ = W1 m ρ c (Proc.devRef .tc main_arg7) := W2_of_ne m ρ c main_arg7 (by decide)
    _ = W0 m ρ c (Proc.devRef .tc main_arg7) := by untouched_by hostOps0
    _ = _ := rfl

theorem W2_arg8 : W2 m ρ c (Proc.devRef .tc main_arg8) = m ((c : Thread nD τ).loc main_arg8) :=
  calc W2 m ρ c (Proc.devRef .tc main_arg8)
    _ = W1 m ρ c (Proc.devRef .tc main_arg8) := W2_of_ne m ρ c main_arg8 (by decide)
    _ = W0 m ρ c (Proc.devRef .tc main_arg8) := by untouched_by hostOps0
    _ = _ := rfl

theorem W2_arg9 : W2 m ρ c (Proc.devRef .tc main_arg9) = m ((c : Thread nD τ).loc main_arg9) :=
  calc W2 m ρ c (Proc.devRef .tc main_arg9)
    _ = W1 m ρ c (Proc.devRef .tc main_arg9) := W2_of_ne m ρ c main_arg9 (by decide)
    _ = W0 m ρ c (Proc.devRef .tc main_arg9) := by untouched_by hostOps0
    _ = _ := rfl

theorem W2_arg10 : W2 m ρ c (Proc.devRef .tc main_arg10) = m ((c : Thread nD τ).loc main_arg10) :=
  calc W2 m ρ c (Proc.devRef .tc main_arg10)
    _ = W1 m ρ c (Proc.devRef .tc main_arg10) := W2_of_ne m ρ c main_arg10 (by decide)
    _ = W0 m ρ c (Proc.devRef .tc main_arg10) := by untouched_by hostOps0
    _ = _ := rfl

theorem W2_arg11 : W2 m ρ c (Proc.devRef .tc main_arg11) = m ((c : Thread nD τ).loc main_arg11) :=
  calc W2 m ρ c (Proc.devRef .tc main_arg11)
    _ = W1 m ρ c (Proc.devRef .tc main_arg11) := W2_of_ne m ρ c main_arg11 (by decide)
    _ = W0 m ρ c (Proc.devRef .tc main_arg11) := by untouched_by hostOps0
    _ = _ := rfl

theorem W2_arg12 : W2 m ρ c (Proc.devRef .tc main_arg12) = m ((c : Thread nD τ).loc main_arg12) :=
  calc W2 m ρ c (Proc.devRef .tc main_arg12)
    _ = W1 m ρ c (Proc.devRef .tc main_arg12) := W2_of_ne m ρ c main_arg12 (by decide)
    _ = W0 m ρ c (Proc.devRef .tc main_arg12) := by untouched_by hostOps0
    _ = _ := rfl

/-- The region finds the neighbourhood mean of the previous region's output. -/
theorem W3_v24 : W3 m ρ c (Proc.devRef .tc main_v24) = Cert.Sage.mean128 (W2 m ρ c (Proc.devRef .tc main_v12)) (edges m c) := by
  show StableHlo.after hostOps1 (W2 m ρ c) (Proc.devRef .tc main_v24) = _
  after_results_simp
  rw [W2_v1, W2_v3, W2_v10]
  rfl

theorem W3_v12 : W3 m ρ c (Proc.devRef .tc main_v12) = W2 m ρ c (Proc.devRef .tc main_v12) := by
  untouched_by hostOps1

theorem W3_arg4 : W3 m ρ c (Proc.devRef .tc main_arg4) = m ((c : Thread nD τ).loc main_arg4) :=
  calc W3 m ρ c (Proc.devRef .tc main_arg4)
    _ = W2 m ρ c (Proc.devRef .tc main_arg4) := by untouched_by hostOps1
    _ = _ := W2_arg4 m ρ c

theorem W3_arg6 : W3 m ρ c (Proc.devRef .tc main_arg6) = m ((c : Thread nD τ).loc main_arg6) :=
  calc W3 m ρ c (Proc.devRef .tc main_arg6)
    _ = W2 m ρ c (Proc.devRef .tc main_arg6) := by untouched_by hostOps1
    _ = _ := W2_arg6 m ρ c

/-- The layer's bias laid out as a row. -/
theorem W3_v25 : W3 m ρ c (Proc.devRef .tc main_v25)
    = shapeCast S1x256 (m ((c : Thread nD τ).loc main_arg5)) shapeCasts_S256_S1x256 := by
  show StableHlo.after hostOps1 (W2 m ρ c) (Proc.devRef .tc main_v25) = _
  after_results_simp
  rw [W2_arg5]
  rfl

/-! ## Between the second and the third region -/

theorem W4_v1 : W4 m ρ c (Proc.devRef .tc main_v1) = Cert.ReferenceIdeal.Read.val_main_v1 (F := Ideal) (edges m c) :=
  calc W4 m ρ c (Proc.devRef .tc main_v1)
    _ = W3 m ρ c (Proc.devRef .tc main_v1) := W4_of_ne m ρ c main_v1 (by decide)
    _ = W2 m ρ c (Proc.devRef .tc main_v1) := by untouched_by hostOps1
    _ = _ := W2_v1 m ρ c

theorem W4_v3 : W4 m ρ c (Proc.devRef .tc main_v3) = Cert.ReferenceIdeal.Read.val_main_v3 (F := Ideal) (edges m c) :=
  calc W4 m ρ c (Proc.devRef .tc main_v3)
    _ = W3 m ρ c (Proc.devRef .tc main_v3) := W4_of_ne m ρ c main_v3 (by decide)
    _ = W2 m ρ c (Proc.devRef .tc main_v3) := by untouched_by hostOps1
    _ = _ := W2_v3 m ρ c

theorem W4_v10 : W4 m ρ c (Proc.devRef .tc main_v10) = Cert.ReferenceIdeal.Read.val_main_v24 (F := Ideal) (edges m c) :=
  calc W4 m ρ c (Proc.devRef .tc main_v10)
    _ = W3 m ρ c (Proc.devRef .tc main_v10) := W4_of_ne m ρ c main_v10 (by decide)
    _ = W2 m ρ c (Proc.devRef .tc main_v10) := by untouched_by hostOps1
    _ = _ := W2_v10 m ρ c

theorem W4_arg7 : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := by untouched_by hostOps1
    _ = _ := W2_arg7 m ρ c

theorem W4_arg8 : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := by untouched_by hostOps1
    _ = _ := W2_arg8 m ρ c

theorem W4_arg9 : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = W2 m ρ c (Proc.devRef .tc main_arg9) := by untouched_by hostOps1
    _ = _ := W2_arg9 m ρ c

theorem W4_arg10 : W4 m ρ c (Proc.devRef .tc main_arg10) = m ((c : Thread nD τ).loc main_arg10) :=
  calc W4 m ρ c (Proc.devRef .tc main_arg10)
    _ = W3 m ρ c (Proc.devRef .tc main_arg10) := W4_of_ne m ρ c main_arg10 (by decide)
    _ = W2 m ρ c (Proc.devRef .tc main_arg10) := by untouched_by hostOps1
    _ = _ := W2_arg10 m ρ c

theorem W4_arg11 : W4 m ρ c (Proc.devRef .tc main_arg11) = m ((c : Thread nD τ).loc main_arg11) :=
  calc W4 m ρ c (Proc.devRef .tc main_arg11)
    _ = W3 m ρ c (Proc.devRef .tc main_arg11) := W4_of_ne m ρ c main_arg11 (by decide)
    _ = W2 m ρ c (Proc.devRef .tc main_arg11) := by untouched_by hostOps1
    _ = _ := W2_arg11 m ρ c

theorem W4_arg12 : W4 m ρ c (Proc.devRef .tc main_arg12) = m ((c : Thread nD τ).loc main_arg12) :=
  calc W4 m ρ c (Proc.devRef .tc main_arg12)
    _ = W3 m ρ c (Proc.devRef .tc main_arg12) := W4_of_ne m ρ c main_arg12 (by decide)
    _ = W2 m ρ c (Proc.devRef .tc main_arg12) := by untouched_by hostOps1
    _ = _ := W2_arg12 m ρ c

/-- The region finds the neighbourhood mean of the previous region's output. -/
theorem W5_v38 : W5 m ρ c (Proc.devRef .tc main_v38) = Cert.Sage.mean256 (W4 m ρ c (Proc.devRef .tc main_v26)) (edges m c) := by
  show StableHlo.after hostOps2 (W4 m ρ c) (Proc.devRef .tc main_v38) = _
  after_results_simp
  rw [W4_v1, W4_v3, W4_v10]
  rfl

theorem W5_v26 : W5 m ρ c (Proc.devRef .tc main_v26) = W4 m ρ c (Proc.devRef .tc main_v26) := by
  untouched_by hostOps2

theorem W5_arg7 : W5 m ρ c (Proc.devRef .tc main_arg7) = m ((c : Thread nD τ).loc main_arg7) :=
  calc W5 m ρ c (Proc.devRef .tc main_arg7)
    _ = W4 m ρ c (Proc.devRef .tc main_arg7) := by untouched_by hostOps2
    _ = _ := W4_arg7 m ρ c

theorem W5_arg9 : W5 m ρ c (Proc.devRef .tc main_arg9) = m ((c : Thread nD τ).loc main_arg9) :=
  calc W5 m ρ c (Proc.devRef .tc main_arg9)
    _ = W4 m ρ c (Proc.devRef .tc main_arg9) := by untouched_by hostOps2
    _ = _ := W4_arg9 m ρ c

/-- The layer's bias laid out as a row. -/
theorem W5_v39 : W5 m ρ c (Proc.devRef .tc main_v39)
    = shapeCast S1x256 (m ((c : Thread nD τ).loc main_arg8)) shapeCasts_S256_S1x256 := by
  show StableHlo.after hostOps2 (W4 m ρ c) (Proc.devRef .tc main_v39) = _
  after_results_simp
  rw [W4_arg8]
  rfl

/-! ## Between the third and the fourth region -/

theorem W6_v1 : W6 m ρ c (Proc.devRef .tc main_v1) = Cert.ReferenceIdeal.Read.val_main_v1 (F := Ideal) (edges m c) :=
  calc W6 m ρ c (Proc.devRef .tc main_v1)
    _ = W5 m ρ c (Proc.devRef .tc main_v1) := W6_of_ne m ρ c main_v1 (by decide)
    _ = W4 m ρ c (Proc.devRef .tc main_v1) := by untouched_by hostOps2
    _ = _ := W4_v1 m ρ c

theorem W6_v3 : W6 m ρ c (Proc.devRef .tc main_v3) = Cert.ReferenceIdeal.Read.val_main_v3 (F := Ideal) (edges m c) :=
  calc W6 m ρ c (Proc.devRef .tc main_v3)
    _ = W5 m ρ c (Proc.devRef .tc main_v3) := W6_of_ne m ρ c main_v3 (by decide)
    _ = W4 m ρ c (Proc.devRef .tc main_v3) := by untouched_by hostOps2
    _ = _ := W4_v3 m ρ c

theorem W6_v10 : W6 m ρ c (Proc.devRef .tc main_v10) = Cert.ReferenceIdeal.Read.val_main_v24 (F := Ideal) (edges m c) :=
  calc W6 m ρ c (Proc.devRef .tc main_v10)
    _ = W5 m ρ c (Proc.devRef .tc main_v10) := W6_of_ne m ρ c main_v10 (by decide)
    _ = W4 m ρ c (Proc.devRef .tc main_v10) := by untouched_by hostOps2
    _ = _ := W4_v10 m ρ c

theorem W6_arg10 : W6 m ρ c (Proc.devRef .tc main_arg10) = m ((c : Thread nD τ).loc main_arg10) :=
  calc W6 m ρ c (Proc.devRef .tc main_arg10)
    _ = W5 m ρ c (Proc.devRef .tc main_arg10) := W6_of_ne m ρ c main_arg10 (by decide)
    _ = W4 m ρ c (Proc.devRef .tc main_arg10) := by untouched_by hostOps2
    _ = _ := W4_arg10 m ρ c

theorem W6_arg11 : W6 m ρ c (Proc.devRef .tc main_arg11) = m ((c : Thread nD τ).loc main_arg11) :=
  calc W6 m ρ c (Proc.devRef .tc main_arg11)
    _ = W5 m ρ c (Proc.devRef .tc main_arg11) := W6_of_ne m ρ c main_arg11 (by decide)
    _ = W4 m ρ c (Proc.devRef .tc main_arg11) := by untouched_by hostOps2
    _ = _ := W4_arg11 m ρ c

theorem W6_arg12 : W6 m ρ c (Proc.devRef .tc main_arg12) = m ((c : Thread nD τ).loc main_arg12) :=
  calc W6 m ρ c (Proc.devRef .tc main_arg12)
    _ = W5 m ρ c (Proc.devRef .tc main_arg12) := W6_of_ne m ρ c main_arg12 (by decide)
    _ = W4 m ρ c (Proc.devRef .tc main_arg12) := by untouched_by hostOps2
    _ = _ := W4_arg12 m ρ c

/-- The region finds the neighbourhood mean of the previous region's output. -/
theorem W7_v52 : W7 m ρ c (Proc.devRef .tc main_v52) = Cert.Sage.mean256 (W6 m ρ c (Proc.devRef .tc main_v40)) (edges m c) := by
  show StableHlo.after hostOps3 (W6 m ρ c) (Proc.devRef .tc main_v52) = _
  after_results_simp
  rw [W6_v1, W6_v3, W6_v10]
  rfl

theorem W7_v40 : W7 m ρ c (Proc.devRef .tc main_v40) = W6 m ρ c (Proc.devRef .tc main_v40) := by
  untouched_by hostOps3

theorem W7_arg10 : W7 m ρ c (Proc.devRef .tc main_arg10) = m ((c : Thread nD τ).loc main_arg10) :=
  calc W7 m ρ c (Proc.devRef .tc main_arg10)
    _ = W6 m ρ c (Proc.devRef .tc main_arg10) := by untouched_by hostOps3
    _ = _ := W6_arg10 m ρ c

theorem W7_arg12 : W7 m ρ c (Proc.devRef .tc main_arg12) = m ((c : Thread nD τ).loc main_arg12) :=
  calc W7 m ρ c (Proc.devRef .tc main_arg12)
    _ = W6 m ρ c (Proc.devRef .tc main_arg12) := by untouched_by hostOps3
    _ = _ := W6_arg12 m ρ c

/-- The layer's bias laid out as a row. -/
theorem W7_v53 : W7 m ρ c (Proc.devRef .tc main_v53)
    = shapeCast S1x256 (m ((c : Thread nD τ).loc main_arg11)) shapeCasts_S256_S1x256 := by
  show StableHlo.after hostOps3 (W6 m ρ c) (Proc.devRef .tc main_v53) = _
  after_results_simp
  rw [W6_arg11]
  rfl

end Cert.Sage.Host

end
-- ==== Proof.SageSpec.lean ====
/-
  One layer of a mean-aggregating graph convolution, entry by entry, on the extended reals.

  A layer takes the node features h (one row per node) and the neighbourhood means a (one row per node, the
  mean of the neighbours' rows) and returns, at node r and output feature c,

      (Σ_k a(r,k) · wl(k,c)  +  Σ_k h(r,k) · wr(k,c))  +  b(c),

  followed by max(·, 0) in the inner layers, and in the last layer by a division of each row by
  max(√(Σ_j y(r,j)²), ε).  The first stage is the plain affine map Σ_k x(r,k) · w(k,c) + b(c).

  The two programs group the three summands differently, (u + v) + b against (u + b) + v; on the extended
  reals addition is commutative and associative with no finiteness condition, so the two groupings agree
  everywhere (`add_right_comm`).
-/
import Idealize.ShloMosaic.PureOps.Ideal
import Idealize.ShloMosaic.Lib.ValueIdx

noncomputable section

namespace Cert.Sage

open Idealize.ShloMosaic Idealize.ShloMosaic.ValueIdx

variable {M K N : Nat}

/-- Row `i 0` of `x` against column `i 1` of `w`. -/
def dot (x : (⟨2, ![M, K]⟩ : Shape).Idx → EReal) (w : (⟨2, ![K, N]⟩ : Shape).Idx → EReal)
    (i : (⟨2, ![M, N]⟩ : Shape).Idx) : EReal :=
  ∑ k : Fin K, x (ix2 (i 0) k) * w (ix2 k (i 1))

/-- The affine map x w + b, the bias a length-N vector. -/
def lin (x : (⟨2, ![M, K]⟩ : Shape).Idx → EReal) (w : (⟨2, ![K, N]⟩ : Shape).Idx → EReal)
    (b : (⟨1, ![N]⟩ : Shape).Idx → EReal) : (⟨2, ![M, N]⟩ : Shape).Idx → EReal :=
  fun i => dot x w i + b (ix1 (i 1))

/-- One layer before its activation: (a wl + h wr) + b. -/
def comb (a h : (⟨2, ![M, K]⟩ : Shape).Idx → EReal) (wl wr : (⟨2, ![K, N]⟩ : Shape).Idx → EReal)
    (b : (⟨1, ![N]⟩ : Shape).Idx → EReal) : (⟨2, ![M, N]⟩ : Shape).Idx → EReal :=
  fun i => (dot a wl i + dot h wr i) + b (ix1 (i 1))

/-- The affine map with the bias held as a 1 × N array. -/
def linRow (x : (⟨2, ![M, K]⟩ : Shape).Idx → EReal) (w : (⟨2, ![K, N]⟩ : Shape).Idx → EReal)
    (b : (⟨2, ![1, N]⟩ : Shape).Idx → EReal) : (⟨2, ![M, N]⟩ : Shape).Idx → EReal :=
  fun i => dot x w i + b (ix2 (0 : Fin 1) (i 1))

/-- One layer before its activation with the bias held as a 1 × N array. -/
def combRow (a h : (⟨2, ![M, K]⟩ : Shape).Idx → EReal) (wl wr : (⟨2, ![K, N]⟩ : Shape).Idx → EReal)
    (b : (⟨2, ![1, N]⟩ : Shape).Idx → EReal) : (⟨2, ![M, N]⟩ : Shape).Idx → EReal :=
  fun i => (dot a wl i + dot h wr i) + b (ix2 (0 : Fin 1) (i 1))

/-- max(·, 0), entry by entry; the zero is the f32 zero word's value. -/
def relu {s : Shape} (y : s.Idx → EReal) : s.Idx → EReal :=
  fun i => max (y i) (Ideal.ofBits .f32 0x00000000#32)

/-- Each row divided by max(√(sum of its squares), ε), ε the value of the f32 word 0x2B8CBCCC. -/
def rowNorm (y : (⟨2, ![M, N]⟩ : Shape).Idx → EReal) : (⟨2, ![M, N]⟩ : Shape).Idx → EReal :=
  fun i => Ideal.div (y i)
    (max (Ideal.sqrt (∑ j : Fin N, y (ix2 (i 0) j) * y (ix2 (i 0) j))) (Ideal.ofBits .f32 0x2B8CBCCC#32))

/-- The other grouping of a layer's three summands is the same extended real. -/
theorem comb_regroup (a h : (⟨2, ![M, K]⟩ : Shape).Idx → EReal) (wl wr : (⟨2, ![K, N]⟩ : Shape).Idx → EReal)
    (b : (⟨1, ![N]⟩ : Shape).Idx → EReal) (i : (⟨2, ![M, N]⟩ : Shape).Idx) :
    (dot a wl i + b (ix1 (i 1))) + dot h wr i = comb a h wl wr b i :=
  add_right_comm _ _ _

end Cert.Sage

end
-- ==== Proof.LibMatmulRows.lean ====
/-
  A rank-2 by rank-2 matrix product read at an index, at the ideal instance.

  For dimension numbers that contract the left operand's axis 1 with the right operand's axis 0 and have no batch
  axis, the entry (r, c) of the product into a zero accumulator is the plain sum over k of a(r, k) * b(k, c) on the
  extended reals; the same for the host's dot_general. The two side facts about the free axes (hl0, hr1) are
  decided once per literal record of dimension numbers.
-/
import Idealize.ShloMosaic.PureOps.Ideal.Laws
import Idealize.ShloMosaic.Lib.ValueIdx

noncomputable section

namespace Idealize.ShloMosaic.MatmulRows

open Idealize.ShloMosaic Idealize.ShloMosaic.ValueIdx

variable {M K N : Nat} {φ₁ φ₂ : FTy}

/-- The operand indices of such a product at output index `i` and contraction position `k` are (i 0, k) and (k, i 1). -/
theorem operand_indices
    (d : DotDims (⟨2, ![M, K]⟩ : Shape) (⟨2, ![K, N]⟩ : Shape) (⟨2, ![M, N]⟩ : Shape))
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (i : (⟨2, ![M, N]⟩ : Shape).Idx) (k : Fin K) :
    d.lhsIdx i ((contrEquiv1 d K hrk hs).symm k) = ix2 (i 0) k
    ∧ d.rhsIdx i ((contrEquiv1 d K hrk hs).symm k) = ix2 k (i 1) := by
  have hk := contrEquiv1_symm_val d K hrk hs k
  constructor
  · funext ax
    apply Fin.ext
    match ax with
    | ⟨0, _⟩ => exact hl0 _ _
    | ⟨1, _⟩ => exact (d.lhsIdx_val_of_single hcl _ _).trans hk
  · funext ax
    apply Fin.ext
    match ax with
    | ⟨0, _⟩ => exact (d.rhsIdx_val_of_single hcr _ _).trans hk
    | ⟨1, _⟩ => exact hr1 _ _

/-- A kernel's matrix product into the zero accumulator, entry by entry. -/
theorem matmul_zero_apply
    (d : DotDims (⟨2, ![M, K]⟩ : Shape) (⟨2, ![K, N]⟩ : Shape) (⟨2, ![M, N]⟩ : Shape)) (prec : Option ContractPrecision)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) :
    FloatOps.matmul d prec a b (constant (F := Ideal) (⟨2, ![M, N]⟩ : Shape) .f32 0x00000000#32) i
      = ∑ k : Fin K, a (ix2 (i 0) k) * b (ix2 k (i 1)) := by
  rw [Ideal.matmul_constant_zero_apply, ← Equiv.sum_comp (contrEquiv1 d K hrk hs).symm]
  refine Finset.sum_congr rfl fun k _ => ?_
  obtain ⟨el, er⟩ := operand_indices d hcl hcr hrk hs hl0 hr1 i k
  rw [el, er]
  rfl

/-- The same with the factors named: whatever the left operand's row and the right operand's column are known to be. -/
theorem matmul_zero_rows
    (d : DotDims (⟨2, ![M, K]⟩ : Shape) (⟨2, ![K, N]⟩ : Shape) (⟨2, ![M, N]⟩ : Shape)) (prec : Option ContractPrecision)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) (L R : Fin K → EReal)
    (hl : ∀ k, a (ix2 (i 0) k) = L k) (hr : ∀ k, b (ix2 k (i 1)) = R k) :
    FloatOps.matmul d prec a b (constant (F := Ideal) (⟨2, ![M, N]⟩ : Shape) .f32 0x00000000#32) i
      = ∑ k : Fin K, L k * R k :=
  (matmul_zero_apply d prec hcl hcr hrk hs hl0 hr1 a b i).trans
    (Finset.sum_congr rfl fun k _ => by rw [hl k, hr k])

/-- The host's dot_general, entry by entry: the same sum. -/
theorem dotGeneral_apply
    (d : DotDims (⟨2, ![M, K]⟩ : Shape) (⟨2, ![K, N]⟩ : Shape) (⟨2, ![M, N]⟩ : Shape)) (prec : Option ContractPrecision)
    (sched : HostSchedule)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) :
    FloatOps.dotGeneral d prec sched a b i = ∑ k : Fin K, a (ix2 (i 0) k) * b (ix2 k (i 1)) := by
  rw [Ideal.dotGeneral_apply, ← Equiv.sum_comp (contrEquiv1 d K hrk hs).symm]
  refine Finset.sum_congr rfl fun k _ => ?_
  obtain ⟨el, er⟩ := operand_indices d hcl hcr hrk hs hl0 hr1 i k
  rw [el, er]
  rfl

end Idealize.ShloMosaic.MatmulRows

end
-- ==== Proof.LibKeepdims.lean ====
/-
  The two "keepdims" column forms of a row reduction's result, read at an index.

  A length-a vector cast to an a by 1 column reads, at (i, u), the vector at i; an a by 1 column broadcast to a by b
  reads, at (p, c), the column at p. Together: a per-row quantity (a row's maximum, a row's sum) spread back over the
  row's entries.
-/
import Idealize.ShloMosaic.Lib.Pipeline.Value
import Idealize.ShloMosaic.Lib.ValueIdx

namespace Idealize.ShloMosaic.Keepdims

open Idealize.ShloMosaic Idealize.ShloMosaic.ValueIdx Idealize.ShloMosaic.Pipeline

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a per-row quantity spread over the row. -/
theorem column_spread {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

end Idealize.ShloMosaic.Keepdims
-- ==== Proof.LibReduceAt.lean ====
/-
  Reductions over one axis read at an index of the result, at the ideal instance, with the reduced index named by
  its coordinates.

  For an a by b array: a row's sum, a row's minimum and a column's maximum (a kernel's vector reductions) are the sum,
  the fold of min and the fold of max over the coordinate that was reduced away, of the array's entries at (i, j).
  For an n by a by b array the host's one-operand reduce with a commutative associative operation, along the last axis
  or along the middle axis, is likewise the fold from its initial value over that coordinate of the entries at
  (n, i, j). The folds are over the whole finite type of the reduced coordinate, in no particular order.
-/
import Idealize.ShloMosaic.PureOps.Ideal.Laws
import Idealize.ShloMosaic.PureOps.Reduce
import Idealize.ShloMosaic.Lib.ValueIdx

noncomputable section

namespace Idealize.ShloMosaic.ReduceAt

open Idealize.ShloMosaic Idealize.ShloMosaic.ValueIdx

variable {a b n : ℕ} {φ : FTy}

/-! ### Rank 2: the index put back by a reduction along the columns' axis, or along the rows' axis -/

theorem lift_along_row (h : (⟨2, ![a, b]⟩ : Shape).Reduces [(1 : Fin 2)] ⟨1, ![a]⟩) (i : Fin a) (j : Fin b) :
    h.lift (ix1 i) j = ix2 i j := by
  funext ax
  apply Fin.ext
  match ax with
  | ⟨0, _⟩ => rfl
  | ⟨1, _⟩ => rfl

theorem lift_along_col (h : (⟨2, ![a, b]⟩ : Shape).Reduces [(0 : Fin 2)] ⟨1, ![b]⟩) (j : Fin b) (i : Fin a) :
    h.lift (ix1 j) i = ix2 i j := by
  funext ax
  apply Fin.ext
  match ax with
  | ⟨0, _⟩ => rfl
  | ⟨1, _⟩ => rfl

/-- A row's sum. -/
theorem row_sum_apply (v : FVec Ideal (⟨2, ![a, b]⟩ : Shape) φ) (acc : BitVec φ.bits)
    (h : (⟨2, ![a, b]⟩ : Shape).Reduces [(1 : Fin 2)] ⟨1, ![a]⟩) (hφ : FKind.Formats φ) (hacc : acc = FKind.add.neutral φ hφ)
    (i : Fin a) :
    multiReduction .add [(1 : Fin 2)] ⟨1, ![a]⟩ v acc h hφ hacc (ix1 i) = ∑ j : Fin b, v (ix2 i j) :=
  (Ideal.multiReduction_add_single v acc h hφ hacc (ix1 i)).trans
    (Finset.sum_congr rfl fun j _ => congrArg v (lift_along_row h i j))

/-- A column's sum. -/
theorem col_sum_apply (v : FVec Ideal (⟨2, ![a, b]⟩ : Shape) φ) (acc : BitVec φ.bits)
    (h : (⟨2, ![a, b]⟩ : Shape).Reduces [(0 : Fin 2)] ⟨1, ![b]⟩) (hφ : FKind.Formats φ) (hacc : acc = FKind.add.neutral φ hφ)
    (j : Fin b) :
    multiReduction .add [(0 : Fin 2)] ⟨1, ![b]⟩ v acc h hφ hacc (ix1 j) = ∑ i : Fin a, v (ix2 i j) :=
  (Ideal.multiReduction_add_single v acc h hφ hacc (ix1 j)).trans
    (Finset.sum_congr rfl fun i _ => congrArg v (lift_along_col h j i))

/-- A row's minimum, from the accumulator's value. -/
theorem row_min_apply (v : FVec Ideal (⟨2, ![a, b]⟩ : Shape) φ) (acc : BitVec φ.bits)
    (h : (⟨2, ![a, b]⟩ : Shape).Reduces [(1 : Fin 2)] ⟨1, ![a]⟩) (hφ : FKind.Formats φ) (hacc : acc = FKind.minimumf.neutral φ hφ)
    (i : Fin a) :
    multiReduction .minimumf [(1 : Fin 2)] ⟨1, ![a]⟩ v acc h hφ hacc (ix1 i)
      = (Finset.univ : Finset (Fin b)).fold min (Ideal.ofBits φ acc) (fun j => v (ix2 i j)) := by
  rw [multiReduction_minimumf_eq_fold, h.fold_filter_drop_single]
  have e : (v ∘ h.lift (ix1 i)) = fun j : Fin b => v (ix2 i j) := funext fun j => congrArg v (lift_along_row h i j)
  rw [e]
  rfl

/-- A column's maximum, from the accumulator's value. -/
theorem col_max_apply (v : FVec Ideal (⟨2, ![a, b]⟩ : Shape) φ) (acc : BitVec φ.bits)
    (h : (⟨2, ![a, b]⟩ : Shape).Reduces [(0 : Fin 2)] ⟨1, ![b]⟩) (hφ : FKind.Formats φ) (hacc : acc = FKind.maximumf.neutral φ hφ)
    (j : Fin b) :
    multiReduction .maximumf [(0 : Fin 2)] ⟨1, ![b]⟩ v acc h hφ hacc (ix1 j)
      = (Finset.univ : Finset (Fin a)).fold max (Ideal.ofBits φ acc) (fun i => v (ix2 i j)) := by
  rw [Ideal.multiReduction_maximumf_single]
  have e : (v ∘ h.lift (ix1 j)) = fun i : Fin a => v (ix2 i j) := funext fun i => congrArg v (lift_along_col h j i)
  rw [e]
  rfl

/-! ### Rank 3: the host's reduce along the last axis, or along the middle axis -/

theorem lift_along_last (h : (⟨3, ![n, a, b]⟩ : Shape).Reduces [(2 : Fin 3)] ⟨2, ![n, a]⟩) (p : Fin n) (i : Fin a) (j : Fin b) :
    h.lift (ix2 p i) j = ix3 p i j := by
  funext ax
  apply Fin.ext
  match ax with
  | ⟨0, _⟩ => rfl
  | ⟨1, _⟩ => rfl
  | ⟨2, _⟩ => rfl

theorem lift_along_middle (h : (⟨3, ![n, a, b]⟩ : Shape).Reduces [(1 : Fin 3)] ⟨2, ![n, b]⟩) (p : Fin n) (j : Fin b) (i : Fin a) :
    h.lift (ix2 p j) i = ix3 p i j := by
  funext ax
  apply Fin.ext
  match ax with
  | ⟨0, _⟩ => rfl
  | ⟨1, _⟩ => rfl
  | ⟨2, _⟩ => rfl

/-- The host's reduce along the last axis. -/
theorem host_reduce_last_apply {u : Shape} (f : EReal → EReal → EReal) [Std.Commutative f] [Std.Associative f]
    (x : (⟨3, ![n, a, b]⟩ : Shape).Idx → EReal) (init : u.Idx → EReal)
    (h' : (⟨3, ![n, a, b]⟩ : Shape).ReducesTo [(2 : Fin 3)] ⟨2, ![n, a]⟩) (hu : 0 < u.numel)
    (h : (⟨3, ![n, a, b]⟩ : Shape).Reduces [(2 : Fin 3)] ⟨2, ![n, a]⟩) (p : Fin n) (i : Fin a) :
    Host.reduce f x init h' hu (ix2 p i)
      = (Finset.univ : Finset (Fin b)).fold f (init (Shape.Idx.first hu)) (fun j => x (ix3 p i j)) := by
  rw [Host.reduce_eq_fold, Shape.ReducesTo.drop_eq_drop h' h, h.fold_filter_drop_single]
  have e : (x ∘ h.lift (ix2 p i)) = fun j : Fin b => x (ix3 p i j) := funext fun j => congrArg x (lift_along_last h p i j)
  rw [e]
  rfl

/-- The host's reduce along the middle axis. -/
theorem host_reduce_middle_apply {u : Shape} (f : EReal → EReal → EReal) [Std.Commutative f] [Std.Associative f]
    (x : (⟨3, ![n, a, b]⟩ : Shape).Idx → EReal) (init : u.Idx → EReal)
    (h' : (⟨3, ![n, a, b]⟩ : Shape).ReducesTo [(1 : Fin 3)] ⟨2, ![n, b]⟩) (hu : 0 < u.numel)
    (h : (⟨3, ![n, a, b]⟩ : Shape).Reduces [(1 : Fin 3)] ⟨2, ![n, b]⟩) (p : Fin n) (j : Fin b) :
    Host.reduce f x init h' hu (ix2 p j)
      = (Finset.univ : Finset (Fin a)).fold f (init (Shape.Idx.first hu)) (fun i => x (ix3 p i j)) := by
  rw [Host.reduce_eq_fold, Shape.ReducesTo.drop_eq_drop h' h, h.fold_filter_drop_single]
  have e : (x ∘ h.lift (ix2 p j)) = fun i : Fin a => x (ix3 p i j) := funext fun i => congrArg x (lift_along_middle h p j i)
  rw [e]
  rfl

end Idealize.ShloMosaic.ReduceAt

end
-- ==== Proof.Payloads.lean ====
/-
  The four kernel bodies' stored values, entry by entry, as the layer specification on the extended reals.

  Each body is one pure term of the blocks it loads. Read at an entry (p, q): a narrowing of the element type is the
  identity on the extended reals; a cast of a shape to itself is the identity; a matrix product into the zero
  accumulator is the sum over k of row p against column q; the 1 × N bias row spread over the rows reads the bias at
  (0, q); the pointwise operations act entry by entry. So the first body is the affine map x w + b, the two inner
  bodies are max((a wl + h wr) + b, 0), and the last body divides each entry of y = (a wl + h wr) + b by
  max(√(Σ_j y(p,j)²), ε), the row's sum of squares being carried from a length-2000 vector to a 2000 × 1 column and
  then spread back over the row's 256 entries.
-/
import proofs.«131527_j89429809037918_1_alg».proof.Proof.Gen.KernelIdeal.Skeleton
import proofs.«131527_j89429809037918_1_alg».proof.Proof.SageSpec
import proofs.«131527_j89429809037918_1_alg».proof.Proof.LibMatmulRows
import proofs.«131527_j89429809037918_1_alg».proof.Proof.LibKeepdims
import proofs.«131527_j89429809037918_1_alg».proof.Proof.LibReduceAt
import Idealize.ShloMosaic.Lib.ValueLayout
import Idealize.ShloMosaic.Lib.ValueIdx
import Idealize.ShloMosaic.Lib.Pipeline.Value
import Idealize.ShloMosaic.PureOps.Ideal.Laws

noncomputable section

namespace Cert.Sage.Pay

open Cert.KernelIdeal Cert.KernelIdeal.Gen Cert.Sage Idealize.ShloMosaic Idealize.ShloMosaic.ValueIdx

theorem mmA_l0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl

theorem mmA_r1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The 2000 × 128 by 128 × 128 product into the zero accumulator is the row-by-column sum. -/
theorem mmA_apply (x : FVec Ideal S2000x128 .bf16) (w : FVec Ideal S128x128 .bf16) (i : S2000x128.Idx) :
    FloatOps.matmul dot_S2000x128_S128x128_S2000x128_1_0_0_1_n_n none x w (constant (F := Ideal) S2000x128 .f32 0x00000000#32) i
      = ∑ k : Fin 128, x (ix2 (i 0) k) * w (ix2 k (i 1)) :=
  MatmulRows.matmul_zero_apply dot_S2000x128_S128x128_S2000x128_1_0_0_1_n_n none rfl rfl rfl rfl mmA_l0 mmA_r1 x w i

theorem mmB_l0 (i : S2000x256.Idx) (q : dot_S2000x128_S128x256_S2000x256_1_0_0_1_n_n.contr.Idx) :
    (dot_S2000x128_S128x256_S2000x256_1_0_0_1_n_n.lhsIdx i q 0).val = (i 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl

theorem mmB_r1 (i : S2000x256.Idx) (q : dot_S2000x128_S128x256_S2000x256_1_0_0_1_n_n.contr.Idx) :
    (dot_S2000x128_S128x256_S2000x256_1_0_0_1_n_n.rhsIdx i q 1).val = (i 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

/-- The 2000 × 128 by 128 × 256 product into the zero accumulator is the row-by-column sum. -/
theorem mmB_apply (x : FVec Ideal S2000x128 .bf16) (w : FVec Ideal S128x256 .bf16) (i : S2000x256.Idx) :
    FloatOps.matmul dot_S2000x128_S128x256_S2000x256_1_0_0_1_n_n none x w (constant (F := Ideal) S2000x256 .f32 0x00000000#32) i
      = ∑ k : Fin 128, x (ix2 (i 0) k) * w (ix2 k (i 1)) :=
  MatmulRows.matmul_zero_apply dot_S2000x128_S128x256_S2000x256_1_0_0_1_n_n none rfl rfl rfl rfl mmB_l0 mmB_r1 x w i

theorem mmC_l0 (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl

theorem mmC_r1 (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- The 2000 × 256 by 256 × 256 product into the zero accumulator is the row-by-column sum. -/
theorem mmC_apply (x : FVec Ideal S2000x256 .bf16) (w : FVec Ideal S256x256 .bf16) (i : S2000x256.Idx) :
    FloatOps.matmul dot_S2000x256_S256x256_S2000x256_1_0_0_1_n_n none x w (constant (F := Ideal) S2000x256 .f32 0x00000000#32) i
      = ∑ k : Fin 256, x (ix2 (i 0) k) * w (ix2 k (i 1)) :=
  MatmulRows.matmul_zero_apply dot_S2000x256_S256x256_S2000x256_1_0_0_1_n_n none rfl rfl rfl rfl mmC_l0 mmC_r1 x w i

theorem pay0_eq (x : Vec Ideal S2000x128 .f32) (w : Vec Ideal S128x128 .f32) (b : Vec Ideal S1x128 .f32) :
    k0_pay1 (F := Ideal) x w b = linRow x w b := by
  funext j
  obtain ⟨p, q, rfl⟩ : ∃ (p : Fin 2000) (q : Fin 128), j = ix2 p q := ⟨j 0, j 1, eq_ix2 j⟩
  unfold k0_pay1
  rw [addf_apply]
  refine congrArg₂ (· + ·) ?_ ?_
  · exact mmA_apply _ _ _
  · rw [shapeCast_self]
    exact broadcastTo_1b_ab_apply _ _ p q

theorem pay1_eq (a h : Vec Ideal S2000x128 .f32) (wl wr : Vec Ideal S128x256 .f32) (b : Vec Ideal S1x256 .f32) :
    k1_pay1 (F := Ideal) a h wl wr b = relu (combRow a h wl wr b) := by
  funext j
  obtain ⟨p, q, rfl⟩ : ∃ (p : Fin 2000) (q : Fin 256), j = ix2 p q := ⟨j 0, j 1, eq_ix2 j⟩
  unfold k1_pay1
  rw [maximumf_apply]
  refine congrArg₂ max ?_ rfl
  rw [addf_apply, addf_apply]
  refine congrArg₂ (· + ·) (congrArg₂ (· + ·) ?_ ?_) ?_
  · rw [shapeCast_self]
    exact mmB_apply _ _ _
  · rw [shapeCast_self]
    exact mmB_apply _ _ _
  · rw [shapeCast_self]
    exact broadcastTo_1b_ab_apply _ _ p q

theorem pay2_eq (a h : Vec Ideal S2000x256 .f32) (wl wr : Vec Ideal S256x256 .f32) (b : Vec Ideal S1x256 .f32) :
    k2_pay1 (F := Ideal) a h wl wr b = relu (combRow a h wl wr b) := by
  funext j
  obtain ⟨p, q, rfl⟩ : ∃ (p : Fin 2000) (q : Fin 256), j = ix2 p q := ⟨j 0, j 1, eq_ix2 j⟩
  unfold k2_pay1
  rw [maximumf_apply]
  refine congrArg₂ max ?_ rfl
  rw [addf_apply, addf_apply]
  refine congrArg₂ (· + ·) (congrArg₂ (· + ·) ?_ ?_) ?_
  · rw [shapeCast_self]
    exact mmC_apply _ _ _
  · rw [shapeCast_self]
    exact mmC_apply _ _ _
  · rw [shapeCast_self]
    exact broadcastTo_1b_ab_apply _ _ p q

/-- A row block's entries divided by the larger of the root of the row's sum of squares and ε. -/
theorem norm_eq (y : FVec Ideal S2000x256 .f32) :
    divf y (broadcastTo S2000x256
        (maximumf (sqrt (shapeCast S2000x1
            (multiReduction .add [1] S2000 (mulf y y) 0x00000000#32 reduces_S2000x256_S2000 (.inl rfl) rfl)
            shapeCasts_S2000_S2000x1))
          (broadcast S2000x1 (Scalar.ofBits (F := Ideal) .f32 0x2B8CBCCC#32)))
        broadcasts_S2000x1_S2000x256)
      = rowNorm y := by
  funext j
  obtain ⟨p, q, rfl⟩ : ∃ (p : Fin 2000) (q : Fin 256), j = ix2 p q := ⟨j 0, j 1, eq_ix2 j⟩
  rw [divf_apply]
  refine congrArg (Ideal.div (y (ix2 p q))) ?_
  refine (Keepdims.broadcastTo_a1_ab_apply _ _ p q).trans ?_
  rw [maximumf_apply]
  refine congrArg₂ max ?_ rfl
  refine congrArg Ideal.sqrt ?_
  refine (Keepdims.shapeCast_a_a1_apply _ _ p 0).trans ?_
  exact ReduceAt.row_sum_apply _ _ _ _ _ p

/-- The last body's value before the normalisation is (a wl + h wr) + b. -/
theorem pre3_eq (a h : Vec Ideal S2000x256 .f32) (wl wr : Vec Ideal S256x256 .f32) (b : Vec Ideal S1x256 .f32) :
    addf (addf
        (matmul dot_S2000x256_S256x256_S2000x256_1_0_0_1_n_n none
          (truncf .bf16 (shapeCast S2000x256 a shapeCasts_S2000x256_S2000x256) bitsLt_bf16_f32)
          (truncf .bf16 wl bitsLt_bf16_f32) (constant (F := Ideal) S2000x256 .f32 0x00000000#32))
        (matmul dot_S2000x256_S256x256_S2000x256_1_0_0_1_n_n none
          (truncf .bf16 (shapeCast S2000x256 h shapeCasts_S2000x256_S2000x256) bitsLt_bf16_f32)
          (truncf .bf16 wr bitsLt_bf16_f32) (constant (F := Ideal) S2000x256 .f32 0x00000000#32)))
      (broadcastTo S2000x256 (shapeCast S1x256 b shapeCasts_S1x256_S1x256) broadcasts_S1x256_S2000x256)
      = combRow a h wl wr b := by
  funext j
  obtain ⟨p, q, rfl⟩ : ∃ (p : Fin 2000) (q : Fin 256), j = ix2 p q := ⟨j 0, j 1, eq_ix2 j⟩
  rw [addf_apply, addf_apply]
  refine congrArg₂ (· + ·) (congrArg₂ (· + ·) ?_ ?_) ?_
  · rw [shapeCast_self]
    exact mmC_apply _ _ _
  · rw [shapeCast_self]
    exact mmC_apply _ _ _
  · rw [shapeCast_self]
    exact broadcastTo_1b_ab_apply _ _ p q

theorem pay3_eq (a h : Vec Ideal S2000x256 .f32) (wl wr : Vec Ideal S256x256 .f32) (b : Vec Ideal S1x256 .f32) :
    k3_pay1 (F := Ideal) a h wl wr b = rowNorm (combRow a h wl wr b) := by
  unfold k3_pay1
  exact (norm_eq _).trans (congrArg rowNorm (pre3_eq a h wl wr b))

end Cert.Sage.Pay

end
-- ==== Proof.SageBlocks.lean ====
/-
  A layer on a block of rows.

  Entry (r, c) of a layer's output depends on row r of each row-indexed input and on column c of each weight and
  of the bias. So if a block's rows are rows of the whole arrays — entry (p, k) of the block is entry (r, k) of the
  array — then the layer computed on the block, at (p, c), is the layer computed on the whole arrays, at (r, c).
  The same holds for the row normalisation, which at (r, c) reads the whole row r.
-/
import proofs.«131527_j89429809037918_1_alg».proof.Proof.SageSpec

noncomputable section

namespace Cert.Sage

open Idealize.ShloMosaic Idealize.ShloMosaic.ValueIdx

variable {M R K N : Nat}

/-- A row of a block against a column is the row of the array against the column. -/
theorem dot_block (X : (⟨2, ![M, K]⟩ : Shape).Idx → EReal) (W : (⟨2, ![K, N]⟩ : Shape).Idx → EReal)
    (xb : (⟨2, ![R, K]⟩ : Shape).Idx → EReal) (wb : (⟨2, ![K, N]⟩ : Shape).Idx → EReal)
    (j : (⟨2, ![R, N]⟩ : Shape).Idx) (i : (⟨2, ![M, N]⟩ : Shape).Idx)
    (hx : ∀ k : Fin K, xb (ix2 (j 0) k) = X (ix2 (i 0) k)) (hw : ∀ k : Fin K, wb (ix2 k (j 1)) = W (ix2 k (i 1))) :
    dot xb wb j = dot X W i :=
  Finset.sum_congr rfl fun k _ => by rw [hx k, hw k]

/-- The affine map on a block of rows. -/
theorem linRow_block (X : (⟨2, ![M, K]⟩ : Shape).Idx → EReal) (W : (⟨2, ![K, N]⟩ : Shape).Idx → EReal)
    (B : (⟨2, ![1, N]⟩ : Shape).Idx → EReal)
    (xb : (⟨2, ![R, K]⟩ : Shape).Idx → EReal) (wb : (⟨2, ![K, N]⟩ : Shape).Idx → EReal) (bb : (⟨2, ![1, N]⟩ : Shape).Idx → EReal)
    (j : (⟨2, ![R, N]⟩ : Shape).Idx) (i : (⟨2, ![M, N]⟩ : Shape).Idx)
    (hx : ∀ k : Fin K, xb (ix2 (j 0) k) = X (ix2 (i 0) k)) (hw : ∀ k : Fin K, wb (ix2 k (j 1)) = W (ix2 k (i 1)))
    (hb : bb (ix2 (0 : Fin 1) (j 1)) = B (ix2 (0 : Fin 1) (i 1))) :
    linRow xb wb bb j = linRow X W B i := by
  unfold linRow
  rw [dot_block X W xb wb j i hx hw, hb]

/-- One layer before its activation on a block of rows. -/
theorem combRow_block (A H : (⟨2, ![M, K]⟩ : Shape).Idx → EReal) (Wl Wr : (⟨2, ![K, N]⟩ : Shape).Idx → EReal)
    (B : (⟨2, ![1, N]⟩ : Shape).Idx → EReal)
    (ab hb' : (⟨2, ![R, K]⟩ : Shape).Idx → EReal) (wl wr : (⟨2, ![K, N]⟩ : Shape).Idx → EReal) (bb : (⟨2, ![1, N]⟩ : Shape).Idx → EReal)
    (j : (⟨2, ![R, N]⟩ : Shape).Idx) (i : (⟨2, ![M, N]⟩ : Shape).Idx)
    (ha : ∀ k : Fin K, ab (ix2 (j 0) k) = A (ix2 (i 0) k)) (hh : ∀ k : Fin K, hb' (ix2 (j 0) k) = H (ix2 (i 0) k))
    (hwl : ∀ k : Fin K, wl (ix2 k (j 1)) = Wl (ix2 k (i 1))) (hwr : ∀ k : Fin K, wr (ix2 k (j 1)) = Wr (ix2 k (i 1)))
    (hb : bb (ix2 (0 : Fin 1) (j 1)) = B (ix2 (0 : Fin 1) (i 1))) :
    combRow ab hb' wl wr bb j = combRow A H Wl Wr B i := by
  unfold combRow
  rw [dot_block A Wl ab wl j i ha hwl, dot_block H Wr hb' wr j i hh hwr, hb]

/-- The row normalisation on a block of rows: it needs the block's whole row to be the array's whole row. -/
theorem rowNorm_block (Y : (⟨2, ![M, N]⟩ : Shape).Idx → EReal) (yb : (⟨2, ![R, N]⟩ : Shape).Idx → EReal)
    (j : (⟨2, ![R, N]⟩ : Shape).Idx) (i : (⟨2, ![M, N]⟩ : Shape).Idx)
    (hrow : ∀ q : Fin N, yb (ix2 (j 0) q) = Y (ix2 (i 0) q)) (hji : yb j = Y i) :
    rowNorm yb j = rowNorm Y i := by
  unfold rowNorm
  rw [hji, Finset.sum_congr rfl fun q _ => by rw [hrow q]]

/-- With the bias a length-N vector laid out as a 1 × N row, the two forms of the affine map agree. -/
theorem linRow_eq_lin (X : (⟨2, ![M, K]⟩ : Shape).Idx → EReal) (W : (⟨2, ![K, N]⟩ : Shape).Idx → EReal)
    (B : (⟨2, ![1, N]⟩ : Shape).Idx → EReal) (b : (⟨1, ![N]⟩ : Shape).Idx → EReal)
    (hB : ∀ q : Fin N, B (ix2 (0 : Fin 1) q) = b (ix1 q)) : linRow X W B = lin X W b :=
  funext fun i => congrArg (fun z => dot X W i + z) (hB (i 1))

/-- The same for a layer. -/
theorem combRow_eq_comb (A H : (⟨2, ![M, K]⟩ : Shape).Idx → EReal) (Wl Wr : (⟨2, ![K, N]⟩ : Shape).Idx → EReal)
    (B : (⟨2, ![1, N]⟩ : Shape).Idx → EReal) (b : (⟨1, ![N]⟩ : Shape).Idx → EReal)
    (hB : ∀ q : Fin N, B (ix2 (0 : Fin 1) q) = b (ix1 q)) : combRow A H Wl Wr B = comb A H Wl Wr b :=
  funext fun i => congrArg (fun z => (dot A Wl i + dot H Wr i) + z) (hB (i 1))

end Cert.Sage

end
-- ==== Proof.KernelLayers.lean ====
/-
  From blocks to arrays: what each of the four layer regions leaves in its output array.

  A region runs its body once per block of 2000 rows. At a point, the body stores into the output's block the layer
  computed on the inputs' blocks; the row-indexed inputs' blocks are the same 2000 rows of their arrays, and the
  weights and the bias row are whole. Entry (p, c) of a layer depends only on row p of the row-indexed inputs and on
  column c of the weights and the bias, and the row normalisation reads only row p of its operand, so what a point
  writes back is the matching block of the layer computed on the whole arrays. The 25 row blocks cover the output
  array, each written back once, so the array ends holding the layer of the whole arrays as the region finds them.
-/
import proofs.«131527_j89429809037918_1_alg».proof.Proof.GenP.KernelIdeal.Frame
import proofs.«131527_j89429809037918_1_alg».proof.Proof.Payloads
import proofs.«131527_j89429809037918_1_alg».proof.Proof.SageSpec
import proofs.«131527_j89429809037918_1_alg».proof.Proof.SageBlocks

set_option maxRecDepth 16384

noncomputable section

namespace Cert.Sage.Layers

open Cert.KernelIdeal Cert.KernelIdeal.Gen Cert.KernelIdeal.GenP Cert.Sage
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## Region 0 -/

/-- The printed index maps of region 0, decided over the grid: the row-blocked input moves with the output, the whole
    inputs stay at block 0, and the output's row-block index is below 25. -/
theorem idx_facts0 : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 24 :=
  (by decide +kernel : ∀ t : Fin grid0.N, _)

/-- Every row block of the output is some point's. -/
theorem idx_onto0 : ∀ q0 : Fin 25, ∃ t : Fin cfg0.N, win0_3.index t = ![q0.val, 0] :=
  (by decide +kernel : ∀ q0 : Fin 25, ∃ t : Fin grid0.N, win0_3.index t = ![q0.val, 0])

theorem flushed0_eq (c : Dev nD) (t : Fin cfg0.N) :
    (dat0 V c).flushed 3 t = ((cfg0.win 3).blk t).view.read (Elt Ideal)
      (linRow (M := 50000) (K := 128) (N := 128) (V c main_arg0) (V c main_arg2) (V c main_v11)) := by
  show (cfg0.win 3).cut (grid0.coords t) ((dat0 V c).after 3 t) = _
  rw [after0_3]
  unfold out0_3
  rw [View.canon_unit_zero hz]
  simp only [View.ld_unit_zero (S := S2000x128) hz, View.ld_unit_zero (S := S128x128) hz, View.ld_unit_zero (S := S1x128) hz]
  rw [Pay.pay0_eq]
  obtain ⟨e0, e1, e2, e3, e4, e5, e6, e7⟩ := idx_facts0 t
  funext j
  refine linRow_block (M := 50000) (R := 2000) (K := 128) (N := 128) (V c main_arg0) (V c main_arg2) (V c main_v11)
    (iblk0 V c 0 t) (iblk0 V c 1 t) (iblk0 V c 2 t) j (((cfg0.win 3).blk t).view.emb j) (fun k => ?_) (fun k => ?_) ?_
  · show V c main_arg0 (((cfg0.win 0).blk t).view.emb (ix2 (j 0) k)) = V c main_arg0 (ix2 ((((cfg0.win 3).blk t).view.emb j) 0) k)
    refine congrArg _ ?_
    funext a; apply Fin.ext
    match a with
    | ⟨0, _⟩ => show win0_0.index t (0 : Fin 2) * 2000 + 1 * (j 0).val = win0_3.index t (0 : Fin 2) * 2000 + 1 * (j 0).val; omega
    | ⟨1, _⟩ => show win0_0.index t (1 : Fin 2) * 128 + 1 * k.val = k.val; omega
  · show V c main_arg2 (((cfg0.win 1).blk t).view.emb (ix2 k (j 1))) = V c main_arg2 (ix2 k ((((cfg0.win 3).blk t).view.emb j) 1))
    refine congrArg _ ?_
    funext a; apply Fin.ext
    match a with
    | ⟨0, _⟩ => show win0_1.index t (0 : Fin 2) * 128 + 1 * k.val = k.val; omega
    | ⟨1, _⟩ => show win0_1.index t (1 : Fin 2) * 128 + 1 * (j 1).val = win0_3.index t (1 : Fin 2) * 128 + 1 * (j 1).val; omega
  · show V c main_v11 (((cfg0.win 2).blk t).view.emb (ix2 (0 : Fin 1) (j 1))) = V c main_v11 (ix2 (0 : Fin 1) ((((cfg0.win 3).blk t).view.emb j) 1))
    refine congrArg _ ?_
    funext a; apply Fin.ext
    match a with
    | ⟨0, _⟩ => show win0_2.index t (0 : Fin 2) * 1 + 1 * 0 = 0; omega
    | ⟨1, _⟩ => show win0_2.index t (1 : Fin 2) * 128 + 1 * (j 1).val = win0_3.index t (1 : Fin 2) * 128 + 1 * (j 1).val; omega

/-- An index of the output array is in point t's block iff each coordinate is in the block's range on its axis. -/
theorem mem_blk0 (t : Fin cfg0.N) (i : S50000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v12).slice (win0_3.rect t)).set ↔ _
  rw [View.set_slice_whole, Rect.mem_set_unit]
  exact Iff.rfl

/-- Every index of the output array is in the block of the point whose row-block index is the row divided by 2000. -/
theorem cover0 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ := idx_onto0 ⟨(i 0).val / 2000, by omega⟩
  have q0 : win0_3.index t (0 : Fin 2) = (i 0).val / 2000 := congrFun ht 0
  have q1 : win0_3.index t (1 : Fin 2) = 0 := congrFun ht 1
  refine ⟨t, flush0_3 t, ?_⟩
  rw [mem_blk0]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 128 ≤ (i 1).val ∧ (i 1).val < win0_3.index t (1 : Fin 2) * 128 + 128; omega

/-- The first stage's output array after the run: the affine map of the arrays the region finds. -/
theorem final0 (c : Dev nD) :
    (dat0 V c).arrAt 3 cfg0.N = linRow (M := 50000) (K := 128) (N := 128) (V c main_arg0) (V c main_arg2) (V c main_v11) :=
  (dat0 V c).arrAt_eq_of_cover 3 (linRow (M := 50000) (K := 128) (N := 128) (V c main_arg0) (V c main_arg2) (V c main_v11))
    (fun t _ => flushed0_eq V c t) cover0

/-- max(·, 0) at an entry depends on that entry only. -/
theorem relu_block {s s' : Shape} (Y : s.Idx → EReal) (yb : s'.Idx → EReal) (j : s'.Idx) (i : s.Idx) (h : yb j = Y i) :
    relu yb j = relu Y i := by
  unfold relu
  rw [h]

/-! ## Region 1 -/

/-- The printed index maps of region 1, decided over the grid: the two row-blocked inputs move with the output, the
    whole inputs stay at block 0, and the output's row-block index is below 25. -/
theorem idx_facts1 : ∀ t : Fin cfg1.N, win1_0.index t (0 : Fin 2) = win1_5.index t (0 : Fin 2)
    ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (1 : Fin 2) = 0 ∧ win1_5.index t (0 : Fin 2) ≤ 24 :=
  (by decide +kernel : ∀ t : Fin grid1.N, _)

/-- Every row block of the output is some point's. -/
theorem idx_onto1 : ∀ q0 : Fin 25, ∃ t : Fin cfg1.N, win1_5.index t = ![q0.val, 0] :=
  (by decide +kernel : ∀ q0 : Fin 25, ∃ t : Fin grid1.N, win1_5.index t = ![q0.val, 0])

/-- What point t writes back is block t of the layer of the whole arrays. -/
theorem flushed1_eq (c : Dev nD) (t : Fin cfg1.N) :
    (dat1 V c).flushed 5 t = ((cfg1.win 5).blk t).view.read (Elt Ideal)
      (relu (combRow (M := 50000) (K := 128) (N := 256) (V c main_v24) (V c main_v12) (V c main_arg4) (V c main_arg6) (V c main_v25))) := by
  show (cfg1.win 5).cut (grid1.coords t) ((dat1 V c).after 5 t) = _
  rw [after1_5]
  unfold out1_5
  rw [View.canon_unit_zero hz]
  simp only [View.ld_unit_zero (S := S2000x128) hz, View.ld_unit_zero (S := S128x256) hz, View.ld_unit_zero (S := S1x256) hz]
  rw [Pay.pay1_eq]
  obtain ⟨e0, e1, e2, e3, e4, e5, e6, e7, e8, e9, e10, e11⟩ := idx_facts1 t
  funext j
  have he1 : (((cfg1.win 5).blk t).view.emb j) 1 = j 1 := by
    apply Fin.ext
    show win1_5.index t (1 : Fin 2) * 256 + 1 * (j 1).val = (j 1).val
    omega
  have hA : ∀ k : Fin 128, (iblk1 V c 0 t : S2000x128.Idx → EReal) (ix2 (j 0) k) = V c main_v24 (ix2 ((((cfg1.win 5).blk t).view.emb j) 0) k) := fun k => by
    show V c main_v24 (((cfg1.win 0).blk t).view.emb (ix2 (j 0) k)) = _
    refine congrArg _ ?_
    funext a; apply Fin.ext
    match a with
    | ⟨0, _⟩ => show win1_0.index t (0 : Fin 2) * 2000 + 1 * (j 0).val = win1_5.index t (0 : Fin 2) * 2000 + 1 * (j 0).val; omega
    | ⟨1, _⟩ => show win1_0.index t (1 : Fin 2) * 128 + 1 * k.val = k.val; omega
  have hH : ∀ k : Fin 128, (iblk1 V c 1 t : S2000x128.Idx → EReal) (ix2 (j 0) k) = V c main_v12 (ix2 ((((cfg1.win 5).blk t).view.emb j) 0) k) := fun k => by
    show V c main_v12 (((cfg1.win 1).blk t).view.emb (ix2 (j 0) k)) = _
    refine congrArg _ ?_
    funext a; apply Fin.ext
    match a with
    | ⟨0, _⟩ => show win1_1.index t (0 : Fin 2) * 2000 + 1 * (j 0).val = win1_5.index t (0 : Fin 2) * 2000 + 1 * (j 0).val; omega
    | ⟨1, _⟩ => show win1_1.index t (1 : Fin 2) * 128 + 1 * k.val = k.val; omega
  have hWL : ∀ (k : Fin 128) (q : Fin 256), (iblk1 V c 2 t : S128x256.Idx → EReal) (ix2 k q) = V c main_arg4 (ix2 k q) := fun k q => by
    show V c main_arg4 (((cfg1.win 2).blk t).view.emb (ix2 k q)) = _
    refine congrArg _ ?_
    funext a; apply Fin.ext
    match a with
    | ⟨0, _⟩ => show win1_2.index t (0 : Fin 2) * 128 + 1 * k.val = k.val; omega
    | ⟨1, _⟩ => show win1_2.index t (1 : Fin 2) * 256 + 1 * q.val = q.val; omega
  have hWR : ∀ (k : Fin 128) (q : Fin 256), (iblk1 V c 3 t : S128x256.Idx → EReal) (ix2 k q) = V c main_arg6 (ix2 k q) := fun k q => by
    show V c main_arg6 (((cfg1.win 3).blk t).view.emb (ix2 k q)) = _
    refine congrArg _ ?_
    funext a; apply Fin.ext
    match a with
    | ⟨0, _⟩ => show win1_3.index t (0 : Fin 2) * 128 + 1 * k.val = k.val; omega
    | ⟨1, _⟩ => show win1_3.index t (1 : Fin 2) * 256 + 1 * q.val = q.val; omega
  have hB : ∀ q : Fin 256, (iblk1 V c 4 t : S1x256.Idx → EReal) (ix2 (0 : Fin 1) q) = V c main_v25 (ix2 (0 : Fin 1) q) := fun q => by
    show V c main_v25 (((cfg1.win 4).blk t).view.emb (ix2 (0 : Fin 1) q)) = _
    refine congrArg _ ?_
    funext a; apply Fin.ext
    match a with
    | ⟨0, _⟩ => show win1_4.index t (0 : Fin 2) * 1 + 1 * 0 = 0; omega
    | ⟨1, _⟩ => show win1_4.index t (1 : Fin 2) * 256 + 1 * q.val = q.val; omega
  refine relu_block (combRow (M := 50000) (K := 128) (N := 256) (V c main_v24) (V c main_v12) (V c main_arg4) (V c main_arg6) (V c main_v25)) (combRow (M := 2000) (K := 128) (N := 256) (iblk1 V c 0 t) (iblk1 V c 1 t) (iblk1 V c 2 t) (iblk1 V c 3 t) (iblk1 V c 4 t)) j (((cfg1.win 5).blk t).view.emb j) ?_
  ·
    refine combRow_block (M := 50000) (R := 2000) (K := 128) (N := 256) (V c main_v24) (V c main_v12) (V c main_arg4) (V c main_arg6) (V c main_v25)
      (iblk1 V c 0 t) (iblk1 V c 1 t) (iblk1 V c 2 t) (iblk1 V c 3 t) (iblk1 V c 4 t) j (((cfg1.win 5).blk t).view.emb j) hA hH
      (fun k => ?_) (fun k => ?_) ?_
    · exact (hWL k (j 1)).trans (congrArg (fun z => V c main_arg4 (ix2 k z)) he1.symm)
    · exact (hWR k (j 1)).trans (congrArg (fun z => V c main_arg6 (ix2 k z)) he1.symm)
    · exact (hB (j 1)).trans (congrArg (fun z => V c main_v25 (ix2 (0 : Fin 1) z)) he1.symm)

/-- An index of the output array is in point t's block iff each coordinate is in the block's range on its axis. -/
theorem mem_blk1 (t : Fin cfg1.N) (i : S50000x256.Idx) :
    i ∈ ((cfg1.win 5).blk t).view.set ↔ ∀ a : Fin 2, win1_5.index t a * S2000x256.size a ≤ (i a).val ∧ (i a).val < win1_5.index t a * S2000x256.size a + S2000x256.size a := by
  show i ∈ ((View.whole main_v26).slice (win1_5.rect t)).set ↔ _
  rw [View.set_slice_whole, Rect.mem_set_unit]
  exact Iff.rfl

/-- Every index of the output array is in the block of the point whose row-block index is the row divided by 2000. -/
theorem cover1 (i : S50000x256.Idx) :
    ∃ t : Fin cfg1.N, (cfg1.win 5).flush t = true ∧ i ∈ ((cfg1.win 5).blk t).view.set := by
  have hi0 : (i 0).val < 50000 := (i 0).isLt
  have hi1 : (i 1).val < 256 := (i 1).isLt
  obtain ⟨t, ht⟩ := idx_onto1 ⟨(i 0).val / 2000, by omega⟩
  have q0 : win1_5.index t (0 : Fin 2) = (i 0).val / 2000 := congrFun ht 0
  have q1 : win1_5.index t (1 : Fin 2) = 0 := congrFun ht 1
  refine ⟨t, flush1_5 t, ?_⟩
  rw [mem_blk1]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 256 ≤ (i 1).val ∧ (i 1).val < win1_5.index t (1 : Fin 2) * 256 + 256; omega

/-- Region 1's output array after the run: the layer of the arrays the region finds. -/
theorem final1 (c : Dev nD) :
    (dat1 V c).arrAt 5 cfg1.N = relu (combRow (M := 50000) (K := 128) (N := 256) (V c main_v24) (V c main_v12) (V c main_arg4) (V c main_arg6) (V c main_v25)) :=
  (dat1 V c).arrAt_eq_of_cover 5 (relu (combRow (M := 50000) (K := 128) (N := 256) (V c main_v24) (V c main_v12) (V c main_arg4) (V c main_arg6) (V c main_v25)))
    (fun t _ => flushed1_eq V c t) cover1

/-! ## Region 2 -/

/-- The printed index maps of region 2, decided over the grid: the two row-blocked inputs move with the output, the
    whole inputs stay at block 0, and the output's row-block index is below 25. -/
theorem idx_facts2 : ∀ t : Fin cfg2.N, win2_0.index t (0 : Fin 2) = win2_5.index t (0 : Fin 2)
    ∧ win2_0.index t (1 : Fin 2) = 0
    ∧ win2_1.index t (0 : Fin 2) = win2_5.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (1 : Fin 2) = 0 ∧ win2_5.index t (0 : Fin 2) ≤ 24 :=
  (by decide +kernel : ∀ t : Fin grid2.N, _)

/-- Every row block of the output is some point's. -/
theorem idx_onto2 : ∀ q0 : Fin 25, ∃ t : Fin cfg2.N, win2_5.index t = ![q0.val, 0] :=
  (by decide +kernel : ∀ q0 : Fin 25, ∃ t : Fin grid2.N, win2_5.index t = ![q0.val, 0])

/-- What point t writes back is block t of the layer of the whole arrays. -/
theorem flushed2_eq (c : Dev nD) (t : Fin cfg2.N) :
    (dat2 V c).flushed 5 t = ((cfg2.win 5).blk t).view.read (Elt Ideal)
      (relu (combRow (M := 50000) (K := 256) (N := 256) (V c main_v38) (V c main_v26) (V c main_arg7) (V c main_arg9) (V c main_v39))) := by
  show (cfg2.win 5).cut (grid2.coords t) ((dat2 V c).after 5 t) = _
  rw [after2_5]
  unfold out2_5
  rw [View.canon_unit_zero hz]
  simp only [View.ld_unit_zero (S := S2000x256) hz, View.ld_unit_zero (S := S256x256) hz, View.ld_unit_zero (S := S1x256) hz]
  rw [Pay.pay2_eq]
  obtain ⟨e0, e1, e2, e3, e4, e5, e6, e7, e8, e9, e10, e11⟩ := idx_facts2 t
  funext j
  have he1 : (((cfg2.win 5).blk t).view.emb j) 1 = j 1 := by
    apply Fin.ext
    show win2_5.index t (1 : Fin 2) * 256 + 1 * (j 1).val = (j 1).val
    omega
  have hA : ∀ k : Fin 256, (iblk2 V c 0 t : S2000x256.Idx → EReal) (ix2 (j 0) k) = V c main_v38 (ix2 ((((cfg2.win 5).blk t).view.emb j) 0) k) := fun k => by
    show V c main_v38 (((cfg2.win 0).blk t).view.emb (ix2 (j 0) k)) = _
    refine congrArg _ ?_
    funext a; apply Fin.ext
    match a with
    | ⟨0, _⟩ => show win2_0.index t (0 : Fin 2) * 2000 + 1 * (j 0).val = win2_5.index t (0 : Fin 2) * 2000 + 1 * (j 0).val; omega
    | ⟨1, _⟩ => show win2_0.index t (1 : Fin 2) * 256 + 1 * k.val = k.val; omega
  have hH : ∀ k : Fin 256, (iblk2 V c 1 t : S2000x256.Idx → EReal) (ix2 (j 0) k) = V c main_v26 (ix2 ((((cfg2.win 5).blk t).view.emb j) 0) k) := fun k => by
    show V c main_v26 (((cfg2.win 1).blk t).view.emb (ix2 (j 0) k)) = _
    refine congrArg _ ?_
    funext a; apply Fin.ext
    match a with
    | ⟨0, _⟩ => show win2_1.index t (0 : Fin 2) * 2000 + 1 * (j 0).val = win2_5.index t (0 : Fin 2) * 2000 + 1 * (j 0).val; omega
    | ⟨1, _⟩ => show win2_1.index t (1 : Fin 2) * 256 + 1 * k.val = k.val; omega
  have hWL : ∀ (k : Fin 256) (q : Fin 256), (iblk2 V c 2 t : S256x256.Idx → EReal) (ix2 k q) = V c main_arg7 (ix2 k q) := fun k q => by
    show V c main_arg7 (((cfg2.win 2).blk t).view.emb (ix2 k q)) = _
    refine congrArg _ ?_
    funext a; apply Fin.ext
    match a with
    | ⟨0, _⟩ => show win2_2.index t (0 : Fin 2) * 256 + 1 * k.val = k.val; omega
    | ⟨1, _⟩ => show win2_2.index t (1 : Fin 2) * 256 + 1 * q.val = q.val; omega
  have hWR : ∀ (k : Fin 256) (q : Fin 256), (iblk2 V c 3 t : S256x256.Idx → EReal) (ix2 k q) = V c main_arg9 (ix2 k q) := fun k q => by
    show V c main_arg9 (((cfg2.win 3).blk t).view.emb (ix2 k q)) = _
    refine congrArg _ ?_
    funext a; apply Fin.ext
    match a with
    | ⟨0, _⟩ => show win2_3.index t (0 : Fin 2) * 256 + 1 * k.val = k.val; omega
    | ⟨1, _⟩ => show win2_3.index t (1 : Fin 2) * 256 + 1 * q.val = q.val; omega
  have hB : ∀ q : Fin 256, (iblk2 V c 4 t : S1x256.Idx → EReal) (ix2 (0 : Fin 1) q) = V c main_v39 (ix2 (0 : Fin 1) q) := fun q => by
    show V c main_v39 (((cfg2.win 4).blk t).view.emb (ix2 (0 : Fin 1) q)) = _
    refine congrArg _ ?_
    funext a; apply Fin.ext
    match a with
    | ⟨0, _⟩ => show win2_4.index t (0 : Fin 2) * 1 + 1 * 0 = 0; omega
    | ⟨1, _⟩ => show win2_4.index t (1 : Fin 2) * 256 + 1 * q.val = q.val; omega
  refine relu_block (combRow (M := 50000) (K := 256) (N := 256) (V c main_v38) (V c main_v26) (V c main_arg7) (V c main_arg9) (V c main_v39)) (combRow (M := 2000) (K := 256) (N := 256) (iblk2 V c 0 t) (iblk2 V c 1 t) (iblk2 V c 2 t) (iblk2 V c 3 t) (iblk2 V c 4 t)) j (((cfg2.win 5).blk t).view.emb j) ?_
  ·
    refine combRow_block (M := 50000) (R := 2000) (K := 256) (N := 256) (V c main_v38) (V c main_v26) (V c main_arg7) (V c main_arg9) (V c main_v39)
      (iblk2 V c 0 t) (iblk2 V c 1 t) (iblk2 V c 2 t) (iblk2 V c 3 t) (iblk2 V c 4 t) j (((cfg2.win 5).blk t).view.emb j) hA hH
      (fun k => ?_) (fun k => ?_) ?_
    · exact (hWL k (j 1)).trans (congrArg (fun z => V c main_arg7 (ix2 k z)) he1.symm)
    · exact (hWR k (j 1)).trans (congrArg (fun z => V c main_arg9 (ix2 k z)) he1.symm)
    · exact (hB (j 1)).trans (congrArg (fun z => V c main_v39 (ix2 (0 : Fin 1) z)) he1.symm)

/-- An index of the output array is in point t's block iff each coordinate is in the block's range on its axis. -/
theorem mem_blk2 (t : Fin cfg2.N) (i : S50000x256.Idx) :
    i ∈ ((cfg2.win 5).blk t).view.set ↔ ∀ a : Fin 2, win2_5.index t a * S2000x256.size a ≤ (i a).val ∧ (i a).val < win2_5.index t a * S2000x256.size a + S2000x256.size a := by
  show i ∈ ((View.whole main_v40).slice (win2_5.rect t)).set ↔ _
  rw [View.set_slice_whole, Rect.mem_set_unit]
  exact Iff.rfl

/-- Every index of the output array is in the block of the point whose row-block index is the row divided by 2000. -/
theorem cover2 (i : S50000x256.Idx) :
    ∃ t : Fin cfg2.N, (cfg2.win 5).flush t = true ∧ i ∈ ((cfg2.win 5).blk t).view.set := by
  have hi0 : (i 0).val < 50000 := (i 0).isLt
  have hi1 : (i 1).val < 256 := (i 1).isLt
  obtain ⟨t, ht⟩ := idx_onto2 ⟨(i 0).val / 2000, by omega⟩
  have q0 : win2_5.index t (0 : Fin 2) = (i 0).val / 2000 := congrFun ht 0
  have q1 : win2_5.index t (1 : Fin 2) = 0 := congrFun ht 1
  refine ⟨t, flush2_5 t, ?_⟩
  rw [mem_blk2]
  intro a
  match a with
  | ⟨0, _⟩ => show win2_5.index t (0 : Fin 2) * 2000 ≤ (i 0).val ∧ (i 0).val < win2_5.index t (0 : Fin 2) * 2000 + 2000; omega
  | ⟨1, _⟩ => show win2_5.index t (1 : Fin 2) * 256 ≤ (i 1).val ∧ (i 1).val < win2_5.index t (1 : Fin 2) * 256 + 256; omega

/-- Region 2's output array after the run: the layer of the arrays the region finds. -/
theorem final2 (c : Dev nD) :
    (dat2 V c).arrAt 5 cfg2.N = relu (combRow (M := 50000) (K := 256) (N := 256) (V c main_v38) (V c main_v26) (V c main_arg7) (V c main_arg9) (V c main_v39)) :=
  (dat2 V c).arrAt_eq_of_cover 5 (relu (combRow (M := 50000) (K := 256) (N := 256) (V c main_v38) (V c main_v26) (V c main_arg7) (V c main_arg9) (V c main_v39)))
    (fun t _ => flushed2_eq V c t) cover2

/-! ## Region 3 -/

/-- The printed index maps of region 3, decided over the grid: the two row-blocked inputs move with the output, the
    whole inputs stay at block 0, and the output's row-block index is below 25. -/
theorem idx_facts3 : ∀ t : Fin cfg3.N, win3_0.index t (0 : Fin 2) = win3_5.index t (0 : Fin 2)
    ∧ win3_0.index t (1 : Fin 2) = 0
    ∧ win3_1.index t (0 : Fin 2) = win3_5.index t (0 : Fin 2) ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (1 : Fin 2) = 0 ∧ win3_5.index t (0 : Fin 2) ≤ 24 :=
  (by decide +kernel : ∀ t : Fin grid3.N, _)

/-- Every row block of the output is some point's. -/
theorem idx_onto3 : ∀ q0 : Fin 25, ∃ t : Fin cfg3.N, win3_5.index t = ![q0.val, 0] :=
  (by decide +kernel : ∀ q0 : Fin 25, ∃ t : Fin grid3.N, win3_5.index t = ![q0.val, 0])

/-- What point t writes back is block t of the layer of the whole arrays. -/
theorem flushed3_eq (c : Dev nD) (t : Fin cfg3.N) :
    (dat3 V c).flushed 5 t = ((cfg3.win 5).blk t).view.read (Elt Ideal)
      (rowNorm (combRow (M := 50000) (K := 256) (N := 256) (V c main_v52) (V c main_v40) (V c main_arg10) (V c main_arg12) (V c main_v53))) := by
  show (cfg3.win 5).cut (grid3.coords t) ((dat3 V c).after 5 t) = _
  rw [after3_5]
  unfold out3_5
  rw [View.canon_unit_zero hz]
  simp only [View.ld_unit_zero (S := S2000x256) hz, View.ld_unit_zero (S := S256x256) hz, View.ld_unit_zero (S := S1x256) hz]
  rw [Pay.pay3_eq]
  obtain ⟨e0, e1, e2, e3, e4, e5, e6, e7, e8, e9, e10, e11⟩ := idx_facts3 t
  funext j
  have he1 : (((cfg3.win 5).blk t).view.emb j) 1 = j 1 := by
    apply Fin.ext
    show win3_5.index t (1 : Fin 2) * 256 + 1 * (j 1).val = (j 1).val
    omega
  have hA : ∀ k : Fin 256, (iblk3 V c 0 t : S2000x256.Idx → EReal) (ix2 (j 0) k) = V c main_v52 (ix2 ((((cfg3.win 5).blk t).view.emb j) 0) k) := fun k => by
    show V c main_v52 (((cfg3.win 0).blk t).view.emb (ix2 (j 0) k)) = _
    refine congrArg _ ?_
    funext a; apply Fin.ext
    match a with
    | ⟨0, _⟩ => show win3_0.index t (0 : Fin 2) * 2000 + 1 * (j 0).val = win3_5.index t (0 : Fin 2) * 2000 + 1 * (j 0).val; omega
    | ⟨1, _⟩ => show win3_0.index t (1 : Fin 2) * 256 + 1 * k.val = k.val; omega
  have hH : ∀ k : Fin 256, (iblk3 V c 1 t : S2000x256.Idx → EReal) (ix2 (j 0) k) = V c main_v40 (ix2 ((((cfg3.win 5).blk t).view.emb j) 0) k) := fun k => by
    show V c main_v40 (((cfg3.win 1).blk t).view.emb (ix2 (j 0) k)) = _
    refine congrArg _ ?_
    funext a; apply Fin.ext
    match a with
    | ⟨0, _⟩ => show win3_1.index t (0 : Fin 2) * 2000 + 1 * (j 0).val = win3_5.index t (0 : Fin 2) * 2000 + 1 * (j 0).val; omega
    | ⟨1, _⟩ => show win3_1.index t (1 : Fin 2) * 256 + 1 * k.val = k.val; omega
  have hWL : ∀ (k : Fin 256) (q : Fin 256), (iblk3 V c 2 t : S256x256.Idx → EReal) (ix2 k q) = V c main_arg10 (ix2 k q) := fun k q => by
    show V c main_arg10 (((cfg3.win 2).blk t).view.emb (ix2 k q)) = _
    refine congrArg _ ?_
    funext a; apply Fin.ext
    match a with
    | ⟨0, _⟩ => show win3_2.index t (0 : Fin 2) * 256 + 1 * k.val = k.val; omega
    | ⟨1, _⟩ => show win3_2.index t (1 : Fin 2) * 256 + 1 * q.val = q.val; omega
  have hWR : ∀ (k : Fin 256) (q : Fin 256), (iblk3 V c 3 t : S256x256.Idx → EReal) (ix2 k q) = V c main_arg12 (ix2 k q) := fun k q => by
    show V c main_arg12 (((cfg3.win 3).blk t).view.emb (ix2 k q)) = _
    refine congrArg _ ?_
    funext a; apply Fin.ext
    match a with
    | ⟨0, _⟩ => show win3_3.index t (0 : Fin 2) * 256 + 1 * k.val = k.val; omega
    | ⟨1, _⟩ => show win3_3.index t (1 : Fin 2) * 256 + 1 * q.val = q.val; omega
  have hB : ∀ q : Fin 256, (iblk3 V c 4 t : S1x256.Idx → EReal) (ix2 (0 : Fin 1) q) = V c main_v53 (ix2 (0 : Fin 1) q) := fun q => by
    show V c main_v53 (((cfg3.win 4).blk t).view.emb (ix2 (0 : Fin 1) q)) = _
    refine congrArg _ ?_
    funext a; apply Fin.ext
    match a with
    | ⟨0, _⟩ => show win3_4.index t (0 : Fin 2) * 1 + 1 * 0 = 0; omega
    | ⟨1, _⟩ => show win3_4.index t (1 : Fin 2) * 256 + 1 * q.val = q.val; omega
  refine rowNorm_block (M := 50000) (R := 2000) (N := 256) (combRow (M := 50000) (K := 256) (N := 256) (V c main_v52) (V c main_v40) (V c main_arg10) (V c main_arg12) (V c main_v53)) (combRow (M := 2000) (K := 256) (N := 256) (iblk3 V c 0 t) (iblk3 V c 1 t) (iblk3 V c 2 t) (iblk3 V c 3 t) (iblk3 V c 4 t)) j (((cfg3.win 5).blk t).view.emb j) (fun q => ?_) ?_
  · exact combRow_block (M := 50000) (R := 2000) (K := 256) (N := 256) (V c main_v52) (V c main_v40) (V c main_arg10) (V c main_arg12) (V c main_v53)
      (iblk3 V c 0 t) (iblk3 V c 1 t) (iblk3 V c 2 t) (iblk3 V c 3 t) (iblk3 V c 4 t) (ix2 (j 0) q) (ix2 ((((cfg3.win 5).blk t).view.emb j) 0) q) hA hH
      (fun k => hWL k q) (fun k => hWR k q) (hB q)
  ·
    refine combRow_block (M := 50000) (R := 2000) (K := 256) (N := 256) (V c main_v52) (V c main_v40) (V c main_arg10) (V c main_arg12) (V c main_v53)
      (iblk3 V c 0 t) (iblk3 V c 1 t) (iblk3 V c 2 t) (iblk3 V c 3 t) (iblk3 V c 4 t) j (((cfg3.win 5).blk t).view.emb j) hA hH
      (fun k => ?_) (fun k => ?_) ?_
    · exact (hWL k (j 1)).trans (congrArg (fun z => V c main_arg10 (ix2 k z)) he1.symm)
    · exact (hWR k (j 1)).trans (congrArg (fun z => V c main_arg12 (ix2 k z)) he1.symm)
    · exact (hB (j 1)).trans (congrArg (fun z => V c main_v53 (ix2 (0 : Fin 1) z)) he1.symm)

/-- An index of the output array is in point t's block iff each coordinate is in the block's range on its axis. -/
theorem mem_blk3 (t : Fin cfg3.N) (i : S50000x256.Idx) :
    i ∈ ((cfg3.win 5).blk t).view.set ↔ ∀ a : Fin 2, win3_5.index t a * S2000x256.size a ≤ (i a).val ∧ (i a).val < win3_5.index t a * S2000x256.size a + S2000x256.size a := by
  show i ∈ ((View.whole main_v54).slice (win3_5.rect t)).set ↔ _
  rw [View.set_slice_whole, Rect.mem_set_unit]
  exact Iff.rfl

/-- Every index of the output array is in the block of the point whose row-block index is the row divided by 2000. -/
theorem cover3 (i : S50000x256.Idx) :
    ∃ t : Fin cfg3.N, (cfg3.win 5).flush t = true ∧ i ∈ ((cfg3.win 5).blk t).view.set := by
  have hi0 : (i 0).val < 50000 := (i 0).isLt
  have hi1 : (i 1).val < 256 := (i 1).isLt
  obtain ⟨t, ht⟩ := idx_onto3 ⟨(i 0).val / 2000, by omega⟩
  have q0 : win3_5.index t (0 : Fin 2) = (i 0).val / 2000 := congrFun ht 0
  have q1 : win3_5.index t (1 : Fin 2) = 0 := congrFun ht 1
  refine ⟨t, flush3_5 t, ?_⟩
  rw [mem_blk3]
  intro a
  match a with
  | ⟨0, _⟩ => show win3_5.index t (0 : Fin 2) * 2000 ≤ (i 0).val ∧ (i 0).val < win3_5.index t (0 : Fin 2) * 2000 + 2000; omega
  | ⟨1, _⟩ => show win3_5.index t (1 : Fin 2) * 256 ≤ (i 1).val ∧ (i 1).val < win3_5.index t (1 : Fin 2) * 256 + 256; omega

/-- Region 3's output array after the run: the layer of the arrays the region finds. -/
theorem final3 (c : Dev nD) :
    (dat3 V c).arrAt 5 cfg3.N = rowNorm (combRow (M := 50000) (K := 256) (N := 256) (V c main_v52) (V c main_v40) (V c main_arg10) (V c main_arg12) (V c main_v53)) :=
  (dat3 V c).arrAt_eq_of_cover 5 (rowNorm (combRow (M := 50000) (K := 256) (N := 256) (V c main_v52) (V c main_v40) (V c main_arg10) (V c main_arg12) (V c main_v53)))
    (fun t _ => flushed3_eq V c t) cover3

end Cert.Sage.Layers

end
-- ==== Proof.LibVectorAsMatrix.lean ====
/-
  A length-n vector reshaped to a 1 × n row or to an n × 1 column, read at an index.

  A reshape keeps row-major positions. Entry (0, q) of the row has position q, and entry (r, 0) of the column has
  position r, so each reads the vector at its free coordinate. This is what a bias `b.reshape(1, n)` or a per-row
  scale `s.reshape(n, 1)` holds, for any element type.
-/
import Idealize.ShloMosaic.Lib.Pipeline.Value
import Idealize.ShloMosaic.Lib.ValueIdx

noncomputable section

namespace Idealize.ShloMosaic.VectorAsMatrix

open Idealize.ShloMosaic Idealize.ShloMosaic.ValueIdx

variable {α : Type} {n : Nat}

/-- [n] reshaped to [1, n]: entry (0, q) is the vector's entry q. -/
theorem row_apply (v : (⟨1, ![n]⟩ : Shape).Idx → α) (h : (⟨1, ![n]⟩ : Shape).ShapeCasts ⟨2, ![1, n]⟩) (p : Fin 1)
    (q : Fin n) : shapeCast ⟨2, ![1, n]⟩ v h (ix2 p q) = v (ix1 q) :=
  shapeCast_apply v h (ix2 p q) (ix1 q) (by
    rw [Shape.rowMajor_val_one, Shape.rowMajor_val_two]
    have hp : p = 0 := Fin.ext (by have := p.isLt; omega)
    subst hp
    show q.val = 0 * n + q.val
    omega)

/-- [n] reshaped to [n, 1]: entry (r, 0) is the vector's entry r. -/
theorem col_apply (v : (⟨1, ![n]⟩ : Shape).Idx → α) (h : (⟨1, ![n]⟩ : Shape).ShapeCasts ⟨2, ![n, 1]⟩) (r : Fin n)
    (q : Fin 1) : shapeCast ⟨2, ![n, 1]⟩ v h (ix2 r q) = v (ix1 r) :=
  shapeCast_apply v h (ix2 r q) (ix1 r) (by
    rw [Shape.rowMajor_val_one, Shape.rowMajor_val_two]
    have hq : q = 0 := Fin.ext (by have := q.isLt; omega)
    subst hq
    show r.val = r.val * 1 + 0
    omega)

end Idealize.ShloMosaic.VectorAsMatrix

end
-- ==== Proof.KernelValue.lean ====
/-
  What the idealized kernel computes.

  Region by region: the first region's output is the affine map of the node features; each later region finds the
  neighbourhood mean of the previous output and that output, and leaves the layer of the two — with max(·, 0) in the
  second and third regions, with the row normalisation in the fourth. The bias reaches each region as a one-row
  array whose entry (0, q) is the bias vector's entry q, so the row form of a layer is the vector form. Chained,
  the result buffer ends at the three-layer network of the launched arguments.
-/
import proofs.«131527_j89429809037918_1_alg».proof.Proof.KernelRun
import proofs.«131527_j89429809037918_1_alg».proof.Proof.KernelHost
import proofs.«131527_j89429809037918_1_alg».proof.Proof.KernelLayers
import proofs.«131527_j89429809037918_1_alg».proof.Proof.SageBlocks
import proofs.«131527_j89429809037918_1_alg».proof.Proof.LibVectorAsMatrix

set_option maxRecDepth 16384

noncomputable section

namespace Cert.Sage.Kern

open Cert.KernelIdeal Cert.KernelIdeal.Gen Cert.KernelIdeal.GenP
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-- The network's stages as functions of the launched arguments. -/
def stage0 : (⟨2, ![50000, 128]⟩ : Shape).Idx → EReal :=
  lin (M := 50000) (K := 128) (N := 128) (m ((c : Thread nD τ).loc main_arg0)) (m ((c : Thread nD τ).loc main_arg2)) (m ((c : Thread nD τ).loc main_arg3))
def stage1 : (⟨2, ![50000, 256]⟩ : Shape).Idx → EReal :=
  relu (comb (M := 50000) (K := 128) (N := 256) (mean128 (stage0 m c) (Host.edges m c)) (stage0 m c) (m ((c : Thread nD τ).loc main_arg4)) (m ((c : Thread nD τ).loc main_arg6)) (m ((c : Thread nD τ).loc main_arg5)))
def stage2 : (⟨2, ![50000, 256]⟩ : Shape).Idx → EReal :=
  relu (comb (M := 50000) (K := 256) (N := 256) (mean256 (stage1 m c) (Host.edges m c)) (stage1 m c) (m ((c : Thread nD τ).loc main_arg7)) (m ((c : Thread nD τ).loc main_arg9)) (m ((c : Thread nD τ).loc main_arg8)))
def stage3 : (⟨2, ![50000, 256]⟩ : Shape).Idx → EReal :=
  rowNorm (comb (M := 50000) (K := 256) (N := 256) (mean256 (stage2 m c) (Host.edges m c)) (stage2 m c) (m ((c : Thread nD τ).loc main_arg10)) (m ((c : Thread nD τ).loc main_arg12)) (m ((c : Thread nD τ).loc main_arg11)))

/-- The first region leaves the affine map of the node features. -/
theorem out0 : W2 m ρ c (Proc.devRef .tc main_v12) = stage0 m c := by
  refine (W2_arr m ρ c 3).trans ?_
  rw [Layers.final0 (V1 m ρ) c]
  show linRow (M := 50000) (K := 128) (N := 128) (W1 m ρ c (Proc.devRef .tc main_arg0)) (W1 m ρ c (Proc.devRef .tc main_arg2))
    (W1 m ρ c (Proc.devRef .tc main_v11)) = _
  rw [Host.W1_arg0, Host.W1_arg2, Host.W1_v11]
  exact linRow_eq_lin _ _ _ _ (fun q => VectorAsMatrix.row_apply _ _ 0 q)

/-- The second region leaves the first layer. -/
theorem out1 : W4 m ρ c (Proc.devRef .tc main_v26) = stage1 m c := by
  refine (W4_arr m ρ c 5).trans ?_
  rw [Layers.final1 (V3 m ρ) c]
  show relu (combRow (M := 50000) (K := 128) (N := 256) (W3 m ρ c (Proc.devRef .tc main_v24)) (W3 m ρ c (Proc.devRef .tc main_v12))
    (W3 m ρ c (Proc.devRef .tc main_arg4)) (W3 m ρ c (Proc.devRef .tc main_arg6)) (W3 m ρ c (Proc.devRef .tc main_v25))) = _
  rw [Host.W3_v24, Host.W3_v12, Host.W3_arg4, Host.W3_arg6, Host.W3_v25, out0]
  unfold stage1
  rw [combRow_eq_comb _ _ _ _ _ _ (fun q => VectorAsMatrix.row_apply _ _ 0 q)]

/-- The third region leaves the second layer. -/
theorem out2 : W6 m ρ c (Proc.devRef .tc main_v40) = stage2 m c := by
  refine (W6_arr m ρ c 5).trans ?_
  rw [Layers.final2 (V5 m ρ) c]
  show relu (combRow (M := 50000) (K := 256) (N := 256) (W5 m ρ c (Proc.devRef .tc main_v38)) (W5 m ρ c (Proc.devRef .tc main_v26))
    (W5 m ρ c (Proc.devRef .tc main_arg7)) (W5 m ρ c (Proc.devRef .tc main_arg9)) (W5 m ρ c (Proc.devRef .tc main_v39))) = _
  rw [Host.W5_v38, Host.W5_v26, Host.W5_arg7, Host.W5_arg9, Host.W5_v39, out1]
  unfold stage2
  rw [combRow_eq_comb _ _ _ _ _ _ (fun q => VectorAsMatrix.row_apply _ _ 0 q)]

/-- The fourth region leaves the third layer, each row normalised. -/
theorem out3 : (dat3 (V7 m ρ) c).arrAt 5 cfg3.N = stage3 m c := by
  rw [Layers.final3 (V7 m ρ) c]
  show rowNorm (combRow (M := 50000) (K := 256) (N := 256) (W7 m ρ c (Proc.devRef .tc main_v52)) (W7 m ρ c (Proc.devRef .tc main_v40))
    (W7 m ρ c (Proc.devRef .tc main_arg10)) (W7 m ρ c (Proc.devRef .tc main_arg12)) (W7 m ρ c (Proc.devRef .tc main_v53))) = _
  rw [Host.W7_v52, Host.W7_v40, Host.W7_arg10, Host.W7_arg12, Host.W7_v53, out2]
  unfold stage3
  rw [combRow_eq_comb _ _ _ _ _ _ (fun q => VectorAsMatrix.row_apply _ _ 0 q)]

end Cert.Sage.Kern

end
-- ==== Proof.LibHostBroadcast.lean ====
/-
  The host's broadcast_in_dim in the few forms a dense layer uses, read at an index.

  A scalar spread over any shape; a length-b vector made a 1 by b row and the row repeated down a rows (a bias); a
  length-a vector made an a by 1 column and the column repeated across b columns (a per-row quantity kept as a column).
-/
import Idealize.ShloMosaic.Lib.Pipeline.Value
import Idealize.ShloMosaic.Lib.ValueIdx

namespace Idealize.ShloMosaic.HostBroadcast

open Idealize.ShloMosaic Idealize.ShloMosaic.ValueIdx Idealize.ShloMosaic.Pipeline

variable {α : Type}

/-- A scalar broadcast to any shape reads the scalar everywhere. -/
theorem scalar_apply {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 (fun a => a.elim0)

/-- A length-b vector as a 1 by b row. -/
theorem vec_row_apply {b : ℕ} (h : (⟨1, ![b]⟩ : Shape).BroadcastsInDim ⟨2, ![1, b]⟩ ![1])
    (x : (⟨1, ![b]⟩ : Shape).Idx → α) (j : (⟨2, ![1, b]⟩ : Shape).Idx) :
    broadcastInDim ⟨2, ![1, b]⟩ ![1] h x j = x (ix1 (j 1)) :=
  broadcastInDim_apply _ h x j (ix1 (j 1)) (fun a => match a with
    | ⟨0, _⟩ => by
      show (j 1).val = if b = 1 then 0 else (j 1).val
      split
      · have := (j 1).isLt; simp at this; omega
      · rfl)

/-- A 1 by b row repeated down a rows. -/
theorem row_rows_apply {a b : ℕ} (h : (⟨2, ![1, b]⟩ : Shape).BroadcastsInDim ⟨2, ![a, b]⟩ ![0, 1])
    (x : (⟨2, ![1, b]⟩ : Shape).Idx → α) (j : (⟨2, ![a, b]⟩ : Shape).Idx) :
    broadcastInDim ⟨2, ![a, b]⟩ ![0, 1] h x j = x (ix2 (0 : Fin 1) (j 1)) :=
  broadcastInDim_apply _ h x j (ix2 (0 : Fin 1) (j 1)) (fun ax => match ax with
    | ⟨0, _⟩ => by
      show 0 = if (1 : ℕ) = 1 then 0 else (j 0).val
      rw [if_pos rfl]
    | ⟨1, _⟩ => by
      show (j 1).val = if b = 1 then 0 else (j 1).val
      split
      · have := (j 1).isLt; simp at this; omega
      · rfl)

/-- A bias: the vector at the column, whatever the row. -/
theorem bias_apply {a b : ℕ} (h1 : (⟨1, ![b]⟩ : Shape).BroadcastsInDim ⟨2, ![1, b]⟩ ![1])
    (h2 : (⟨2, ![1, b]⟩ : Shape).BroadcastsInDim ⟨2, ![a, b]⟩ ![0, 1])
    (x : (⟨1, ![b]⟩ : Shape).Idx → α) (j : (⟨2, ![a, b]⟩ : Shape).Idx) :
    broadcastInDim ⟨2, ![a, b]⟩ ![0, 1] h2 (broadcastInDim ⟨2, ![1, b]⟩ ![1] h1 x) j = x (ix1 (j 1)) :=
  (row_rows_apply h2 _ j).trans (vec_row_apply h1 x _)

/-- A length-a vector as an a by 1 column. -/
theorem vec_col_apply {a : ℕ} (h : (⟨1, ![a]⟩ : Shape).BroadcastsInDim ⟨2, ![a, 1]⟩ ![0])
    (x : (⟨1, ![a]⟩ : Shape).Idx → α) (j : (⟨2, ![a, 1]⟩ : Shape).Idx) :
    broadcastInDim ⟨2, ![a, 1]⟩ ![0] h x j = x (ix1 (j 0)) :=
  broadcastInDim_apply _ h x j (ix1 (j 0)) (fun ax => match ax with
    | ⟨0, _⟩ => by
      show (j 0).val = if a = 1 then 0 else (j 0).val
      split
      · have := (j 0).isLt; simp at this; omega
      · rfl)

/-- An a by 1 column repeated across b columns. -/
theorem col_cols_apply {a b : ℕ} (h : (⟨2, ![a, 1]⟩ : Shape).BroadcastsInDim ⟨2, ![a, b]⟩ ![0, 1])
    (x : (⟨2, ![a, 1]⟩ : Shape).Idx → α) (j : (⟨2, ![a, b]⟩ : Shape).Idx) :
    broadcastInDim ⟨2, ![a, b]⟩ ![0, 1] h x j = x (ix2 (j 0) (0 : Fin 1)) :=
  broadcastInDim_apply _ h x j (ix2 (j 0) (0 : Fin 1)) (fun ax => match ax with
    | ⟨0, _⟩ => by
      show (j 0).val = if a = 1 then 0 else (j 0).val
      split
      · have := (j 0).isLt; simp at this; omega
      · rfl
    | ⟨1, _⟩ => by
      show 0 = if (1 : ℕ) = 1 then 0 else (j 1).val
      rw [if_pos rfl])

/-- A per-row quantity kept as a column and spread over the row. -/
theorem column_apply {a b : ℕ} (h1 : (⟨1, ![a]⟩ : Shape).BroadcastsInDim ⟨2, ![a, 1]⟩ ![0])
    (h2 : (⟨2, ![a, 1]⟩ : Shape).BroadcastsInDim ⟨2, ![a, b]⟩ ![0, 1])
    (x : (⟨1, ![a]⟩ : Shape).Idx → α) (j : (⟨2, ![a, b]⟩ : Shape).Idx) :
    broadcastInDim ⟨2, ![a, b]⟩ ![0, 1] h2 (broadcastInDim ⟨2, ![a, 1]⟩ ![0] h1 x) j = x (ix1 (j 0)) :=
  (col_cols_apply h2 _ j).trans (vec_col_apply h1 x _)

end Idealize.ShloMosaic.HostBroadcast
-- ==== Proof.RefLayers.lean ====
/-
  The reference program's result as the three-layer network of the specification.

  The program first applies an affine map to the node features, then three times replaces the features h by
  (mean(h) W_l + b) + h W_r, where mean(h) is the neighbourhood mean of the rows of h along the edge list; the first
  two times max(., 0) follows, the third time each row is divided by max(its Euclidean norm, eps).  Here every dense
  stage is read entry by entry as the specification's formula, and the neighbourhood mean stays the one named
  function of the features and the edge list: the second and the third layer use the same function, and nothing
  about its value is needed beyond that.
-/
import proofs.«131527_j89429809037918_1_alg».proof.Proof.Gen.ReferenceIdeal.Read
import proofs.«131527_j89429809037918_1_alg».proof.Proof.SageSpec
import proofs.«131527_j89429809037918_1_alg».proof.Proof.SageMean
import proofs.«131527_j89429809037918_1_alg».proof.Proof.LibMatmulRows
import proofs.«131527_j89429809037918_1_alg».proof.Proof.LibHostBroadcast

noncomputable section

namespace Cert.Sage.Ref

open Cert.ReferenceIdeal Cert.ReferenceIdeal.Gen Cert.ReferenceIdeal.Read
open Idealize.ShloMosaic Idealize.ShloMosaic.ValueIdx Idealize.ShloMosaic.StableHlo

variable (x0 : (⟨S50000x128, .f32⟩ : BufTy).Contents (Elt Ideal)) (x1 : (⟨S2x800000, .i32⟩ : BufTy).Contents (Elt Ideal))
  (x2 : (⟨S128x128, .f32⟩ : BufTy).Contents (Elt Ideal)) (x3 : (⟨S128, .f32⟩ : BufTy).Contents (Elt Ideal))
  (x4 : (⟨S128x256, .f32⟩ : BufTy).Contents (Elt Ideal)) (x5 : (⟨S256, .f32⟩ : BufTy).Contents (Elt Ideal))
  (x6 : (⟨S128x256, .f32⟩ : BufTy).Contents (Elt Ideal)) (x7 : (⟨S256x256, .f32⟩ : BufTy).Contents (Elt Ideal))
  (x8 : (⟨S256, .f32⟩ : BufTy).Contents (Elt Ideal)) (x9 x10 : (⟨S256x256, .f32⟩ : BufTy).Contents (Elt Ideal))
  (x11 : (⟨S256, .f32⟩ : BufTy).Contents (Elt Ideal)) (x12 : (⟨S256x256, .f32⟩ : BufTy).Contents (Elt Ideal))

/-! ### The mean stages are the one mean function -/

/-- The first layer's mean stage is the mean of the affine stage. -/
theorem v26_eq : val_main_v26 (F := Ideal) x0 x1 x2 x3 = Cert.Sage.mean128 (val_main_v7 (F := Ideal) x0 x2 x3) x1 := rfl

/-- The second layer's mean stage is the mean of the first layer's result. -/
theorem v52_eq : val_main_v52 (F := Ideal) x0 x1 x2 x3 x4 x5 x6
    = Cert.Sage.mean256 (val_main_v33 (F := Ideal) x0 x1 x2 x3 x4 x5 x6) x1 := rfl

/-- The third layer's mean stage is the same function of the second layer's result: its index and count stages are
    the second layer's, term for term. -/
theorem v78_eq : val_main_v78 (F := Ideal) x0 x1 x2 x3 x4 x5 x6 x7 x8 x9
    = Cert.Sage.mean256 (val_main_v59 (F := Ideal) x0 x1 x2 x3 x4 x5 x6 x7 x8 x9) x1 := rfl

/-! ### The dense pieces, entry by entry -/

/-- The host's product of a 50000 × 128 array with a 128 × 128 one is the specification's row-by-column sum. -/
theorem dot_128_128 (a : FVec Ideal S50000x128 .f32) (w : FVec Ideal S128x128 .f32)
    (i : S50000x128.Idx) :
    Host.dotGeneral (F := Ideal) dot_S50000x128_S128x128_S50000x128_1_0_0_1_n_n none a w i = Cert.Sage.dot a w i :=
  MatmulRows.dotGeneral_apply _ _ _ rfl rfl rfl rfl lhs_main_v4_0 rhs_main_v4_1 a w i

/-- The same for a 128 × 256 right factor. -/
theorem dot_128_256 (a : FVec Ideal S50000x128 .f32) (w : FVec Ideal S128x256 .f32)
    (i : S50000x256.Idx) :
    Host.dotGeneral (F := Ideal) dot_S50000x128_S128x256_S50000x256_1_0_0_1_n_n none a w i = Cert.Sage.dot a w i :=
  MatmulRows.dotGeneral_apply _ _ _ rfl rfl rfl rfl lhs_main_v27_0 rhs_main_v27_1 a w i

/-- The same for a 50000 × 256 array and a 256 × 256 right factor. -/
theorem dot_256_256 (a : FVec Ideal S50000x256 .f32) (w : FVec Ideal S256x256 .f32)
    (i : S50000x256.Idx) :
    Host.dotGeneral (F := Ideal) dot_S50000x256_S256x256_S50000x256_1_0_0_1_n_n none a w i = Cert.Sage.dot a w i :=
  MatmulRows.dotGeneral_apply _ _ _ rfl rfl rfl rfl lhs_main_v53_0 rhs_main_v53_1 a w i

/-- A length-128 bias spread over the rows reads the vector at the column. -/
theorem bias_128 (b : FVec Ideal S128 .f32) (i : S50000x128.Idx) :
    broadcastInDim S50000x128 ![0, 1] bcast_S1x128_S50000x128_0_1 (broadcastInDim S1x128 ![1] bcast_S128_S1x128_1 b) i
      = b (ix1 (i 1)) :=
  HostBroadcast.bias_apply _ _ b i

/-- A length-256 bias spread over the rows reads the vector at the column. -/
theorem bias_256 (b : FVec Ideal S256 .f32) (i : S50000x256.Idx) :
    broadcastInDim S50000x256 ![0, 1] bcast_S1x256_S50000x256_0_1 (broadcastInDim S1x256 ![1] bcast_S256_S1x256_1 b) i
      = b (ix1 (i 1)) :=
  HostBroadcast.bias_apply _ _ b i

/-- The constant-zero array of an activation reads the zero word's value everywhere. -/
theorem zeros_256 (i : S50000x256.Idx) :
    broadcastInDim S50000x256 ![] bcast_S_S50000x256 (constant (F := Ideal) S_ .f32 0x00000000#32) i
      = Ideal.ofBits .f32 0x00000000#32 :=
  HostBroadcast.scalar_apply _ _ _ i

/-- A layer from 128 to 256 features before its activation: (a W_l + b) + h W_r is the specification's layer. -/
theorem layer_128 (a h : FVec Ideal S50000x128 .f32) (wl wr : FVec Ideal S128x256 .f32)
    (b : FVec Ideal S256 .f32) (i : S50000x256.Idx) :
    addf (F := Ideal)
        (addf (F := Ideal) (Host.dotGeneral (F := Ideal) dot_S50000x128_S128x256_S50000x256_1_0_0_1_n_n none a wl)
          (broadcastInDim S50000x256 ![0, 1] bcast_S1x256_S50000x256_0_1 (broadcastInDim S1x256 ![1] bcast_S256_S1x256_1 b)))
        (Host.dotGeneral (F := Ideal) dot_S50000x128_S128x256_S50000x256_1_0_0_1_n_n none h wr) i
      = Cert.Sage.comb a h wl wr b i := by
  rw [addf_apply, addf_apply, dot_128_256, dot_128_256, bias_256]
  exact Cert.Sage.comb_regroup a h wl wr b i

/-- A layer from 256 to 256 features before its activation. -/
theorem layer_256 (a h : FVec Ideal S50000x256 .f32) (wl wr : FVec Ideal S256x256 .f32)
    (b : FVec Ideal S256 .f32) (i : S50000x256.Idx) :
    addf (F := Ideal)
        (addf (F := Ideal) (Host.dotGeneral (F := Ideal) dot_S50000x256_S256x256_S50000x256_1_0_0_1_n_n none a wl)
          (broadcastInDim S50000x256 ![0, 1] bcast_S1x256_S50000x256_0_1 (broadcastInDim S1x256 ![1] bcast_S256_S1x256_1 b)))
        (Host.dotGeneral (F := Ideal) dot_S50000x256_S256x256_S50000x256_1_0_0_1_n_n none h wr) i
      = Cert.Sage.comb a h wl wr b i := by
  rw [addf_apply, addf_apply, dot_256_256, dot_256_256, bias_256]
  exact Cert.Sage.comb_regroup a h wl wr b i

/-- A row's sum of a 50000 × 256 array from the zero word. -/
theorem rowsum_256 (v : FVec Ideal S50000x256 .f32) (j : S50000.Idx) :
    Host.reduceAdd (F := Ideal) v (constant (F := Ideal) S_ .f32 0x00000000#32) reducesTo_S50000x256_S50000_d1 h_S_ j
      = ∑ k : Fin 256, v (ix2 (j 0) k) := by
  simp only [Host.reduceAdd, Ideal.hostReduceAdd_def]
  rw [Ideal.hostReduceAdd_single reducesTo_S50000x256_S50000_d1 (by decide), constant_apply, Ideal.ofBits_zero_f32, zero_add]
  refine Finset.sum_congr rfl fun k _ => ?_
  exact congrArg v (funext fun a => Fin.ext (by match a with | ⟨0, _⟩ => rfl | ⟨1, _⟩ => rfl))

/-- A column spread over 256 columns reads the column at the row. -/
theorem col_spread (z : FVec Ideal S50000x1 .f32) (i : S50000x256.Idx) :
    broadcastInDim S50000x256 ![0, 1] bcast_S50000x1_S50000x256_0_1 z i = z (ix2 (i 0) (0 : Fin 1)) :=
  HostBroadcast.col_cols_apply _ z i

/-- A length-50000 vector kept as a column reads the vector at the row. -/
theorem col_of_vec (r : FVec Ideal S50000 .f32) (j : S50000x1.Idx) :
    broadcastInDim S50000x1 ![0] bcast_S50000_S50000x1_0 r j = r (ix1 (j 0)) :=
  HostBroadcast.vec_col_apply _ r j

/-- The constant column of the lower bound eps reads its word's value. -/
theorem eps_col (j : S50000x1.Idx) :
    broadcastInDim S50000x1 ![] bcast_S_S50000x1 (constant (F := Ideal) S_ .f32 0x2B8CBCCC#32) j
      = Ideal.ofBits .f32 0x2B8CBCCC#32 :=
  HostBroadcast.scalar_apply _ _ _ j

/-- The last stage: each row divided by max(the square root of the sum of its squares, eps), the per-row quantity
    kept as a column and spread back over the row. -/
theorem norm_256 (y : FVec Ideal S50000x256 .f32) (i : S50000x256.Idx) :
    Host.divf (F := Ideal) y
      (broadcastInDim S50000x256 ![0, 1] bcast_S50000x1_S50000x256_0_1
        (maximumf (F := Ideal)
          (Host.sqrt (F := Ideal)
            (broadcastInDim S50000x1 ![0] bcast_S50000_S50000x1_0
              (Host.reduceAdd (F := Ideal) (mulf (F := Ideal) y y) (constant (F := Ideal) S_ .f32 0x00000000#32)
                reducesTo_S50000x256_S50000_d1 h_S_)))
          (broadcastInDim S50000x1 ![] bcast_S_S50000x1 (constant (F := Ideal) S_ .f32 0x2B8CBCCC#32)))) i
      = Cert.Sage.rowNorm y i := by
  unfold Host.divf
  rw [col_spread, maximumf_apply, eps_col]
  unfold Host.sqrt
  rw [col_of_vec, rowsum_256]
  unfold Cert.Sage.rowNorm
  simp only [Ideal.hostDivf_def, Ideal.hostUnary_sqrt_def, mulf_apply]

/-! ### The program's stages as the specification's -/

/-- The affine first stage. -/
theorem v7_eq : val_main_v7 (F := Ideal) x0 x2 x3 = Cert.Sage.lin x0 x2 x3 := by
  funext i
  unfold val_main_v7 val_main_v4 val_main_v6 val_main_v5
  rw [addf_apply, dot_128_128, bias_128]
  rfl

/-- The first layer. -/
theorem v33_eq : val_main_v33 (F := Ideal) x0 x1 x2 x3 x4 x5 x6
    = Cert.Sage.relu (Cert.Sage.comb (val_main_v26 (F := Ideal) x0 x1 x2 x3) (val_main_v7 (F := Ideal) x0 x2 x3) x4 x6 x5) := by
  funext i
  unfold val_main_v33 val_main_v32 val_main_v30 val_main_v27 val_main_v31 val_main_v29 val_main_v28 val_main_call0_v0
    val_main_call0_cst
  rw [maximumf_apply, layer_128, zeros_256]
  rfl

/-- The second layer. -/
theorem v59_eq : val_main_v59 (F := Ideal) x0 x1 x2 x3 x4 x5 x6 x7 x8 x9
    = Cert.Sage.relu (Cert.Sage.comb (val_main_v52 (F := Ideal) x0 x1 x2 x3 x4 x5 x6)
        (val_main_v33 (F := Ideal) x0 x1 x2 x3 x4 x5 x6) x7 x9 x8) := by
  funext i
  unfold val_main_v59 val_main_v58 val_main_v56 val_main_v53 val_main_v57 val_main_v55 val_main_v54 val_main_call1_v0
    val_main_call1_cst
  rw [maximumf_apply, layer_256, zeros_256]
  rfl

/-- The third layer before its normalisation. -/
theorem v84_eq : val_main_v84 (F := Ideal) x0 x1 x2 x3 x4 x5 x6 x7 x8 x9 x10 x11 x12
    = Cert.Sage.comb (val_main_v78 (F := Ideal) x0 x1 x2 x3 x4 x5 x6 x7 x8 x9)
        (val_main_v59 (F := Ideal) x0 x1 x2 x3 x4 x5 x6 x7 x8 x9) x10 x12 x11 := by
  funext i
  unfold val_main_v84 val_main_v82 val_main_v79 val_main_v83 val_main_v81 val_main_v80
  exact layer_256 _ _ x10 x12 x11 i

/-- The result: the third layer with each row normalised. -/
theorem v92_eq : val_main_v92 (F := Ideal) x0 x1 x2 x3 x4 x5 x6 x7 x8 x9 x10 x11 x12
    = Cert.Sage.rowNorm (Cert.Sage.comb (val_main_v78 (F := Ideal) x0 x1 x2 x3 x4 x5 x6 x7 x8 x9)
        (val_main_v59 (F := Ideal) x0 x1 x2 x3 x4 x5 x6 x7 x8 x9) x10 x12 x11) := by
  funext i
  unfold val_main_v92 val_main_v91 val_main_v90 val_main_v89 val_main_v88 val_main_v87 val_main_v86 val_main_v85
    val_main_cst_16 val_main_cst_17
  rw [norm_256, v84_eq]

/-! ### The whole network -/

/-- The features after the affine first stage. -/
def h0 : (⟨S50000x128, .f32⟩ : BufTy).Contents (Elt Ideal) := Cert.Sage.lin x0 x2 x3

/-- The features after the first layer. -/
def h1 : (⟨S50000x256, .f32⟩ : BufTy).Contents (Elt Ideal) :=
  Cert.Sage.relu (Cert.Sage.comb (Cert.Sage.mean128 (h0 x0 x2 x3) x1) (h0 x0 x2 x3) x4 x6 x5)

/-- The features after the second layer. -/
def h2 : (⟨S50000x256, .f32⟩ : BufTy).Contents (Elt Ideal) :=
  Cert.Sage.relu (Cert.Sage.comb (Cert.Sage.mean256 (h1 x0 x1 x2 x3 x4 x5 x6) x1) (h1 x0 x1 x2 x3 x4 x5 x6) x7 x9 x8)

/-- The network: the third layer of the second layer's features, each row normalised. -/
def net : (⟨S50000x256, .f32⟩ : BufTy).Contents (Elt Ideal) :=
  Cert.Sage.rowNorm (Cert.Sage.comb (Cert.Sage.mean256 (h2 x0 x1 x2 x3 x4 x5 x6 x7 x8 x9) x1)
    (h2 x0 x1 x2 x3 x4 x5 x6 x7 x8 x9) x10 x12 x11)

theorem v7_h0 : val_main_v7 (F := Ideal) x0 x2 x3 = h0 x0 x2 x3 := v7_eq x0 x2 x3

theorem v33_h1 : val_main_v33 (F := Ideal) x0 x1 x2 x3 x4 x5 x6 = h1 x0 x1 x2 x3 x4 x5 x6 := by
  rw [v33_eq, v26_eq, v7_h0]
  rfl

theorem v59_h2 : val_main_v59 (F := Ideal) x0 x1 x2 x3 x4 x5 x6 x7 x8 x9 = h2 x0 x1 x2 x3 x4 x5 x6 x7 x8 x9 := by
  rw [v59_eq, v52_eq, v33_h1]
  rfl

/-- The reference program's result is the network. -/
theorem ref_value : val_main_v92 (F := Ideal) x0 x1 x2 x3 x4 x5 x6 x7 x8 x9 x10 x11 x12
    = net x0 x1 x2 x3 x4 x5 x6 x7 x8 x9 x10 x11 x12 := by
  rw [v92_eq, v78_eq, v59_h2]
  rfl

end Cert.Sage.Ref

end
-- ==== Proof.lean ====
/-
  The certificate's claim for a three-layer graph convolution with mean aggregation and a final row normalisation.

  Both programs compute, from the node features x, the edge array e and the layers' weights and biases,
      h0 = x W + b,
      h1 = max(0, mean(h0, e) Wl1 + h0 Wr1 + b1),   h2 = max(0, mean(h1, e) Wl2 + h1 Wr2 + b2),
      y  = mean(h2, e) Wl3 + h2 Wr3 + b3,            result = y / max(√(Σ_j y(·, j)²), ε)   row by row,
  where mean(h, e) gathers the rows of h at the edges' sources, adds them up at the destinations and divides by the
  clamped in-degree. The kernel computes the dense part of each layer in a pipelined region on blocks of 2000 rows
  and the means by host operations in between; the reference is host operations throughout. At the exact instance a
  block's rows of a layer are the layer's rows, a matrix unit's product is the plain sum of products, a change of
  float format is the identity, and the two programs' groupings of a layer's three summands, (u + v) + b against
  (u + b) + v, are the same extended real with no finiteness condition; the means are the same host operations on
  both sides and are carried as one function. So the two results are one function of the arguments.

  The three frame claims are the programs' generated runs; the idealization rewrote nothing, so the fourth claim is
  trivial; the fifth is the equality above, from the kernel's run with its result named and the reference's run.
-/
import proofs.«131527_j89429809037918_1_alg».proof.Defs
import proofs.«131527_j89429809037918_1_alg».proof.Proof.Gen.Kernel
import proofs.«131527_j89429809037918_1_alg».proof.Proof.Gen.KernelIdeal
import proofs.«131527_j89429809037918_1_alg».proof.Proof.Gen.ReferenceIdeal
import proofs.«131527_j89429809037918_1_alg».proof.Proof.Gen.Pre_finite_inputs
import proofs.«131527_j89429809037918_1_alg».proof.Proof.Gen.ReferenceIdeal.Run
import proofs.«131527_j89429809037918_1_alg».proof.Proof.Gen.ReferenceIdeal.Read
import proofs.«131527_j89429809037918_1_alg».proof.Proof.GenP.Kernel.Frame
import proofs.«131527_j89429809037918_1_alg».proof.Proof.GenP.KernelIdeal.Frame
import proofs.«131527_j89429809037918_1_alg».proof.Proof.KernelRun
import proofs.«131527_j89429809037918_1_alg».proof.Proof.KernelValue
import proofs.«131527_j89429809037918_1_alg».proof.Proof.RefLayers
import Idealize.ShloMosaic.Adequacy
import Idealize.ShloMosaic.Init

set_option maxRecDepth 16384

noncomputable section

namespace Cert.Proof

open Idealize.ShloMosaic Idealize.ShloMosaic.TcCoe Idealize.SL.Sem

theorem frame_kernel [hKernel : Cert.Kernel.Facts] [hPre : Cert.Pre_finite_inputs.Facts] : Cert.frame_Kernel :=
  fun m ρ _ => Cert.Kernel.GenP.frame m ρ

theorem frame_kernelIdeal [hKernelIdeal : Cert.KernelIdeal.Facts] [hPre : Cert.Pre_finite_inputs.Facts] : Cert.frame_KernelIdeal :=
  fun m ρ _ => Cert.KernelIdeal.GenP.frame m ρ

/-- The reference's frame is its run with the result dropped. -/
theorem frame_referenceIdeal [hReferenceIdeal : Cert.ReferenceIdeal.Facts] [hPre : Cert.Pre_finite_inputs.Facts] : Cert.frame_ReferenceIdeal :=
  fun m ρ _ => (θ_run Cert.ReferenceIdeal.defs _ _).mono (fun _ h c => (h c).2) (Cert.ReferenceIdeal.Value.run (F := Ideal) m ρ)

theorem preserves : Cert.preserves_Kernel_KernelIdeal := trivial

/-- Both programs end at the network of the arguments: the kernel by its regions' write-backs and host stretches, the
    reference by its run read stage by stage; the arguments agree, so the results do. -/
theorem algebraic [hKernelIdeal : Cert.KernelIdeal.Facts] [hReferenceIdeal : Cert.ReferenceIdeal.Facts] [hPre : Cert.Pre_finite_inputs.Facts] :
    Cert.algebraic_KernelIdeal_ReferenceIdeal := by
  intro m ρ m' ρ' _ hagree
  refine ⟨fun c => Cert.Sage.Kern.stage3 m c, ?_, ?_⟩
  · exact (θ_run Cert.KernelIdeal.defs _ _).mono (fun r h c => ⟨(h c).1.trans (Cert.Sage.Kern.out3 m ρ c), (h c).2⟩)
      (Cert.Sage.Kern.run_result (F := Ideal) m ρ)
  · refine (θ_run Cert.ReferenceIdeal.defs _ _).mono (fun r h c => ⟨(h c).1.trans ?_, (h c).2⟩) (Cert.ReferenceIdeal.Value.run (F := Ideal) m' ρ')
    obtain ⟨e0, e1, e2, e3, e4, e5, e6, e7, e8, e9, e10, e11, e12⟩ := hagree c
    rw [Cert.ReferenceIdeal.Read.val_main_v92_eq, Cert.Sage.Ref.ref_value, e0, e1, e2, e3, e4, e5, e6, e7, e8, e9, e10, e11, e12]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
